-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S2x2 : Shape := ⟨2, ![2, 2]⟩
abbrev S2 : Shape := ⟨1, ![2]⟩
abbrev S1x8192 : Shape := ⟨2, ![1, 8192]⟩
abbrev S1 : Shape := ⟨1, ![1]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S1x8192 : S_.BroadcastsInDim S1x8192 (![] : Fin 0 → Fin S1x8192.rank)
  reducesTo_S1x8192_S_d0_1 : S1x8192.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x2 .f32) (main_arg1 : FVec F S2x2 .f32) (main_arg2 : FVec F S2 .f32) (main_arg3 : FVec F S1x8192 .f32) (main_arg4 : FVec F S1 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_v13 main_v16
-- ==== Kernel.lean ====
abbrev S8192x2 : Shape := ⟨2, ![8192, 2]⟩
abbrev S2x2 : Shape := ⟨2, ![2, 2]⟩
abbrev S2 : Shape := ⟨1, ![2]⟩
abbrev S1x8192 : Shape := ⟨2, ![1, 8192]⟩
abbrev S1 : Shape := ⟨1, ![1]⟩
abbrev S1x2 : Shape := ⟨2, ![1, 2]⟩
abbrev S_ : Shape := ⟨0, ![]⟩
abbrev S1x1 : Shape := ⟨2, ![1, 1]⟩
abbrev S2x8192 : Shape := ⟨2, ![2, 8192]⟩
abbrev S8192 : Shape := ⟨1, ![8192]⟩
abbrev S512x2 : Shape := ⟨2, ![512, 2]⟩
abbrev S2x2048 : Shape := ⟨2, ![2, 2048]⟩
abbrev S512 : Shape := ⟨1, ![512]⟩
abbrev S512x1 : Shape := ⟨2, ![512, 1]⟩
abbrev S1x2048 : Shape := ⟨2, ![1, 2048]⟩
abbrev S2048 : Shape := ⟨1, ![2048]⟩
abbrev S512x2048 : Shape := ⟨2, ![512, 2048]⟩

abbrev nBuf : Space → Nat
  | .hbm => 45
  | .vmem => 7
  | .smem => 0
  | _ => 0

abbrev bufTy : (tb : Table) → Fin (tcTables nBuf tb) → BufTy
  | .hbm, ⟨0, _⟩ => ⟨S8192x2, .f32⟩
  | .hbm, ⟨1, _⟩ => ⟨S2x2, .f32⟩
  | .hbm, ⟨2, _⟩ => ⟨S2, .f32⟩
  | .hbm, ⟨3, _⟩ => ⟨S1x8192, .f32⟩
  | .hbm, ⟨4, _⟩ => ⟨S1, .f32⟩
  | .hbm, ⟨5, _⟩ => ⟨S2x2, .f32⟩
  | .hbm, ⟨6, _⟩ => ⟨S8192x2, .f32⟩
  | .hbm, ⟨7, _⟩ => ⟨S1x2, .f32⟩
  | .hbm, ⟨8, _⟩ => ⟨S8192x2, .f32⟩
  | .hbm, ⟨9, _⟩ => ⟨S8192x2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S1x1, .f32⟩
  | .hbm, ⟨21, _⟩ => ⟨S8192x2, .f32⟩
  | .hbm, ⟨22, _⟩ => ⟨S8192x2, .f32⟩
  | .hbm, ⟨23, _⟩ => ⟨S8192x2, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x2, .f32⟩
  | .hbm, ⟨37, _⟩ => ⟨S8192x2, .f32⟩
  | .hbm, ⟨38, _⟩ => ⟨S8192x2, .f32⟩
  | .hbm, ⟨39, _⟩ => ⟨S8192x2, .f32⟩
  | .hbm, ⟨40, _⟩ => ⟨S2x8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .local _ .vmem, ⟨0, _⟩ => ⟨S512x2, .f32⟩
  | .local _ .vmem, ⟨1, _⟩ => ⟨S512x2, .f32⟩
  | .local _ .vmem, ⟨2, _⟩ => ⟨S2x2048, .f32⟩
  | .local _ .vmem, ⟨3, _⟩ => ⟨S2x2048, .f32⟩
  | .local _ .vmem, ⟨4, _⟩ => ⟨S1x8192, .f32⟩
  | .local _ .vmem, ⟨5, _⟩ => ⟨S512, .f32⟩
  | .local _ .vmem, ⟨6, _⟩ => ⟨S512, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_cst_3 : Ref sig .tc := ⟨.hbm, 30, rfl⟩
abbrev main_call0_v11 : Ref sig .tc := ⟨.hbm, 31, rfl⟩
abbrev main_call0_cst_4 : Ref sig .tc := ⟨.hbm, 32, rfl⟩
abbrev main_call0_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v41 : BitVec 32 := Scalar.muli arg1 c2048_i32
  v41
def k0_off1 (i : grid0.Coords) : Fin 2 → Nat :=
  let c0_6 : Index := 0#32
  let arg1 : BitVec 32 := BitVec.ofNat 32 (i 1).val
  let c2048_i32 : BitVec 32 := 2048#32
  let v41 : BitVec 32 := Scalar.muli arg1 c2048_i32
  let v42 : BitVec 32 := v41
  let v43 : Index := Scalar.indexCast v42
  ![0, v43.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S2x2_S2x2_1_0 : S2x2.Transposes [1, 0] S2x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S_d0_1 : S8192x2.ReducesTo [0, 1] S_
  h_S_ : 0 < S_.numel
  bcast_S_S1x1 : S_.BroadcastsInDim S1x1 (![] : Fin 0 → Fin S1x1.rank)
  bcast_S1x1_S8192x2_0_1 : S1x1.BroadcastsInDim S8192x2 (![0, 1] : Fin 2 → Fin S8192x2.rank)
  bcast_S_S8192x2 : S_.BroadcastsInDim S8192x2 (![] : Fin 0 → Fin S8192x2.rank)
  transposes_S8192x2_S2x8192_1_0 : S8192x2.Transposes [1, 0] S2x8192
  inb_S512_S512_0 : ∀ a, (![0] : Fin 1 → Nat) a + S512.size a ≤ S512.size a
  h_S512 : 0 < S512.numel
  inb_S512x2_S512x2_0_0 : ∀ a, (![0, 0] : Fin 2 → Nat) a + S512x2.size a ≤ S512x2.size a
  h_S512x2 : 0 < S512x2.numel
  shapeCasts_S512x2_S512x2 : S512x2.ShapeCasts S512x2
  slices_S512x2_o0_0_S512x1 : S512x2.Slices ![0, 0] S512x1
  slices_S512x2_o0_1_S512x1 : S512x2.Slices ![0, 1] S512x1
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  slices_S2x2048_o0_0_S1x2048 : S2x2048.Slices ![0, 0] S1x2048
  shapeCasts_S1x2048_S2048 : S1x2048.ShapeCasts S2048
  slices_S2x2048_o1_0_S1x2048 : S2x2048.Slices ![1, 0] S1x2048
  shapeCasts_S2048_S1x2048 : S2048.ShapeCasts S1x2048
  broadcasts_S512x1_S512x2048 : S512x1.Broadcasts S512x2048
  broadcasts_S1x2048_S512x2048 : S1x2048.Broadcasts S512x2048
  h_S1x2048 : 0 < S1x2048.numel
  reduces_S512x2048_S512 : S512x2048.Reduces [1] S512
  shapeCasts_S512_S512 : S512.ShapeCasts S512
  shapeCasts_S1_S_ : S1.ShapeCasts S_
  bcast_S_S8192 : S_.BroadcastsInDim S8192 (![] : Fin 0 → Fin S8192.rank)
  dot_S8192x2_S2x2_S8192x2_1_0_0_1_n_n_wf : DotDims.WF S8192x2 S2x2 S8192x2 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S8192x2.size a
  hwx0_0 : ∀ i : grid0.Coords, EltTy.bits .f32 = 32 ∨ (Rect.block (s := S8192x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x8192.size a
  hwx0_1 : ∀ i : grid0.Coords, EltTy.bits .f32 = 32 ∨ (Rect.block (s := S2x8192) S2x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S8192.size a
  hwx0_3 : ∀ i : grid0.Coords, EltTy.bits .f32 = 32 ∨ (Rect.block (s := S8192) S512.size (cc0_transform_3 i) (hinb0_3 i)).WholeWords (EltTy.packing .f32)

variable [Facts₀]

def dot_S8192x2_S2x2_S8192x2_1_0_0_1_n_n : DotDims S8192x2 S2x2 S8192x2 where
  lhsContracting := [1]
  rhsContracting := [0]
  lhsNonContracting := [0]
  rhsNonContracting := [1]
  lhsBatch := []
  rhsBatch := []
  wf := dot_S8192x2_S2x2_S8192x2_1_0_0_1_n_n_wf

abbrev win0_0 : Pipeline.Window sig grid0 :=
  Pipeline.Window.ofSpec (Memref.whole main_v12) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2 : Shape := ⟨2, ![8192, 2]⟩
abbrev S2x2 : Shape := ⟨2, ![2, 2]⟩
abbrev S2 : Shape := ⟨1, ![2]⟩
abbrev S1x8192 : Shape := ⟨2, ![1, 8192]⟩
abbrev S1 : Shape := ⟨1, ![1]⟩
abbrev S1x2 : Shape := ⟨2, ![1, 2]⟩
abbrev S_ : Shape := ⟨0, ![]⟩
abbrev S1x1 : Shape := ⟨2, ![1, 1]⟩
abbrev S8192 : Shape := ⟨1, ![8192]⟩
abbrev S8192x1 : Shape := ⟨2, ![8192, 1]⟩
abbrev S8192x8192 : Shape := ⟨2, ![8192, 8192]⟩
abbrev S2x8192 : Shape := ⟨2, ![2, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S2x2, .f32⟩
  | .hbm, ⟨2, _⟩ => ⟨S2, .f32⟩
  | .hbm, ⟨3, _⟩ => ⟨S1x8192, .f32⟩
  | .hbm, ⟨4, _⟩ => ⟨S1, .f32⟩
  | .hbm, ⟨5, _⟩ => ⟨S2x2, .f32⟩
  | .hbm, ⟨6, _⟩ => ⟨S8192x2, .f32⟩
  | .hbm, ⟨7, _⟩ => ⟨S1x2, .f32⟩
  | .hbm, ⟨8, _⟩ => ⟨S8192x2, .f32⟩
  | .hbm, ⟨9, _⟩ => ⟨S8192x2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x2, .f32⟩
  | .hbm, ⟨15, _⟩ => ⟨S8192x2, .f32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S1x1, .f32⟩
  | .hbm, ⟨23, _⟩ => ⟨S8192x2, .f32⟩
  | .hbm, ⟨24, _⟩ => ⟨S8192x2, .f32⟩
  | .hbm, ⟨25, _⟩ => ⟨S8192x2, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x2, .f32⟩
  | .hbm, ⟨39, _⟩ => ⟨S8192x2, .f32⟩
  | .hbm, ⟨40, _⟩ => ⟨S8192x2, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S1x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S2x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S8192x1, .f32⟩
  | .hbm, ⟨63, _⟩ => ⟨S8192x1, .f32⟩
  | .hbm, ⟨64, _⟩ => ⟨S1x1, .f32⟩
  | .hbm, ⟨65, _⟩ => ⟨S8192x1, .f32⟩
  | .hbm, ⟨66, _⟩ => ⟨S8192x1, .f32⟩
  | .hbm, ⟨67, _⟩ => ⟨S8192, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_cst_0 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_cst_1 : Ref sig .tc := ⟨.hbm, 27, rfl⟩
abbrev main_call0_call0_v8 : Ref sig .tc := ⟨.hbm, 28, rfl⟩
abbrev main_call0_call0_cst_2 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_cst_3 : Ref sig .tc := ⟨.hbm, 32, rfl⟩
abbrev main_call0_call0_v11 : Ref sig .tc := ⟨.hbm, 33, rfl⟩
abbrev main_call0_call0_cst_4 : Ref sig .tc := ⟨.hbm, 34, rfl⟩
abbrev main_call0_call0_call0_v0 : Ref sig .tc := ⟨.hbm, 35, rfl⟩
abbrev main_call0_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_3 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩

abbrev nD : Nat := 1
abbrev τ : Topo := Topo.v7x

variable {F : FTy → Type} [FloatOps F]

class Facts₀ : Prop where
  transposes_S2x2_S2x2_1_0 : S2x2.Transposes [1, 0] S2x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S_d0_1 : S8192x2.ReducesTo [0, 1] S_
  h_S_ : 0 < S_.numel
  bcast_S_S8192x2 : S_.BroadcastsInDim S8192x2 (![] : Fin 0 → Fin S8192x2.rank)
  bcast_S_S1x1 : S_.BroadcastsInDim S1x1 (![] : Fin 0 → Fin S1x1.rank)
  bcast_S1x1_S8192x2_0_1 : S1x1.BroadcastsInDim S8192x2 (![0, 1] : Fin 2 → Fin S8192x2.rank)
  reducesTo_S8192x2_S8192_d1 : S8192x2.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  transposes_S1x8192_S8192x1_1_0 : S1x8192.Transposes [1, 0] S8192x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x2_S2x2_S8192x2_1_0_0_1_n_n_wf : DotDims.WF S8192x2 S2x2 S8192x2 [1] [0] [0] [1] [] []
  dot_S8192x2_S2x8192_S8192x8192_1_0_0_1_n_n_wf : DotDims.WF S8192x2 S2x8192 S8192x8192 [1] [0] [0] [1] [] []
  dot_S8192x8192_S8192x1_S8192x1_1_0_0_1_n_n_wf : DotDims.WF S8192x8192 S8192x1 S8192x1 [1] [0] [0] [1] [] []

variable [Facts₀]

def dot_S8192x2_S2x2_S8192x2_1_0_0_1_n_n : DotDims S8192x2 S2x2 S8192x2 where
  lhsContracting := [1]
  rhsContracting := [0]
  lhsNonContracting := [0]
  rhsNonContracting := [1]
  lhsBatch := []
  rhsBatch := []
  wf := dot_S8192x2_S2x2_S8192x2_1_0_0_1_n_n_wf
def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.Std.lean ====
/-
  What both programs do to the raw points before anything else: the affine layer X·Aᵀ + c, then the
  standardization (x − mean) / sqrt(var) over all 16384 entries, with the unbiased variance (divisor 16383).
  Each program spells this chain with its own names for the same operations on the same literals; it is
  written here once per program, and the two are one function of the three argument tables. Nothing in the
  certificate ever looks inside it.
-/
import proofs.«139571_j71691594105115_2_alg».proof.Proof.Gen.KernelIdeal
import proofs.«139571_j71691594105115_2_alg».proof.Proof.Gen.ReferenceIdeal
import Idealize.ShloMosaic.PureOps.Ideal

noncomputable section

open Idealize.ShloMosaic

namespace Cert.KernelIdeal.Rbf

open Cert.KernelIdeal Cert.KernelIdeal.Facts₀ Cert.KernelIdeal.Facts

variable {F : FTy → Type} [FloatOps F]

/-- The affine layer: the points times the transposed 2 × 2 matrix, plus the offset laid along the rows. -/
def lin (a0 : FVec F S8192x2 .f32) (a1 : FVec F S2x2 .f32) (a2 : FVec F S2 .f32) : FVec F S8192x2 .f32 :=
  addf (Host.dotGeneral dot_S8192x2_S2x2_S8192x2_1_0_0_1_n_n none a0 (transpose S2x2 [1, 0] a1 transposes_S2x2_S2x2_1_0))
    (broadcastInDim S8192x2 ![0, 1] bcast_S1x2_S8192x2_0_1 (broadcastInDim S1x2 ![1] bcast_S2_S1x2_1 a2))

/-- The mean of all 16384 entries: their sum from zero, divided by 16384. -/
def mean (x : FVec F S8192x2 .f32) : FVec F S_ .f32 :=
  Host.divf (Host.reduceAdd x (constant S_ .f32 0x00000000#32) reducesTo_S8192x2_S_d0_1 h_S_) (constant S_ .f32 0x46800000#32)

/-- The count of entries less the one degree of freedom the estimate gives up, as a float. -/
def dof : FVec F S_ .f32 :=
  subf (constant S_ .f32 0x46800000#32) (sitofp .f32 (constantI S_ 32 1#32))

/-- The unbiased variance of all entries: the squared deviations from the mean (taken as a 1 × 1 table and
    repeated), summed from zero and divided by the count less one, guarded by that divisor being positive. -/
def var (x : FVec F S8192x2 .f32) : FVec F S_ .f32 :=
  select (cmpf .ogt (dof (F := F)) (constant S_ .f32 0x00000000#32))
    (Host.divf
      (Host.reduceAdd
        (mulf
          (subf x (broadcastInDim S8192x2 ![0, 1] bcast_S1x1_S8192x2_0_1
            (Host.divf (broadcastInDim S1x1 ![] bcast_S_S1x1 (Host.reduceAdd x (constant S_ .f32 0x00000000#32) reducesTo_S8192x2_S_d0_1 h_S_))
              (broadcastInDim S1x1 ![] bcast_S_S1x1 (constant S_ .f32 0x46800000#32)))))
          (subf x (broadcastInDim S8192x2 ![0, 1] bcast_S1x1_S8192x2_0_1
            (Host.divf (broadcastInDim S1x1 ![] bcast_S_S1x1 (Host.reduceAdd x (constant S_ .f32 0x00000000#32) reducesTo_S8192x2_S_d0_1 h_S_))
              (broadcastInDim S1x1 ![] bcast_S_S1x1 (constant S_ .f32 0x46800000#32))))))
        (constant S_ .f32 0x00000000#32) reducesTo_S8192x2_S_d0_1 h_S_)
      (dof (F := F)))
    (id (constant S_ .f32 0x7FC00000#32))

/-- The standardized points: the affine layer's output less its mean, over the square root of its variance. -/
def xstd (a0 : FVec F S8192x2 .f32) (a1 : FVec F S2x2 .f32) (a2 : FVec F S2 .f32) : FVec F S8192x2 .f32 :=
  Host.divf (subf (lin a0 a1 a2) (broadcastInDim S8192x2 ![] bcast_S_S8192x2 (mean (lin a0 a1 a2))))
    (broadcastInDim S8192x2 ![] bcast_S_S8192x2 (Host.sqrt (var (lin a0 a1 a2))))

end Cert.KernelIdeal.Rbf

namespace Cert.ReferenceIdeal.Rbf

open Cert.ReferenceIdeal Cert.ReferenceIdeal.Facts₀ Cert.ReferenceIdeal.Facts

variable {F : FTy → Type} [FloatOps F]

/-- The affine layer: the points times the transposed 2 × 2 matrix, plus the offset laid along the rows. -/
def lin (a0 : FVec F S8192x2 .f32) (a1 : FVec F S2x2 .f32) (a2 : FVec F S2 .f32) : FVec F S8192x2 .f32 :=
  addf (Host.dotGeneral dot_S8192x2_S2x2_S8192x2_1_0_0_1_n_n none a0 (transpose S2x2 [1, 0] a1 transposes_S2x2_S2x2_1_0))
    (broadcastInDim S8192x2 ![0, 1] bcast_S1x2_S8192x2_0_1 (broadcastInDim S1x2 ![1] bcast_S2_S1x2_1 a2))

/-- The mean of all 16384 entries: their sum from zero, divided by 16384. -/
def mean (x : FVec F S8192x2 .f32) : FVec F S_ .f32 :=
  Host.divf (Host.reduceAdd x (constant S_ .f32 0x00000000#32) reducesTo_S8192x2_S_d0_1 h_S_) (constant S_ .f32 0x46800000#32)

/-- The count of entries less the one degree of freedom the estimate gives up, as a float. -/
def dof : FVec F S_ .f32 :=
  subf (constant S_ .f32 0x46800000#32) (sitofp .f32 (constantI S_ 32 1#32))

/-- The unbiased variance of all entries: the squared deviations from the mean (taken as a 1 × 1 table and
    repeated), summed from zero and divided by the count less one, guarded by that divisor being positive. -/
def var (x : FVec F S8192x2 .f32) : FVec F S_ .f32 :=
  select (cmpf .ogt (dof (F := F)) (constant S_ .f32 0x00000000#32))
    (Host.divf
      (Host.reduceAdd
        (mulf
          (subf x (broadcastInDim S8192x2 ![0, 1] bcast_S1x1_S8192x2_0_1
            (Host.divf (broadcastInDim S1x1 ![] bcast_S_S1x1 (Host.reduceAdd x (constant S_ .f32 0x00000000#32) reducesTo_S8192x2_S_d0_1 h_S_))
              (broadcastInDim S1x1 ![] bcast_S_S1x1 (constant S_ .f32 0x46800000#32)))))
          (subf x (broadcastInDim S8192x2 ![0, 1] bcast_S1x1_S8192x2_0_1
            (Host.divf (broadcastInDim S1x1 ![] bcast_S_S1x1 (Host.reduceAdd x (constant S_ .f32 0x00000000#32) reducesTo_S8192x2_S_d0_1 h_S_))
              (broadcastInDim S1x1 ![] bcast_S_S1x1 (constant S_ .f32 0x46800000#32))))))
        (constant S_ .f32 0x00000000#32) reducesTo_S8192x2_S_d0_1 h_S_)
      (dof (F := F)))
    (id (constant S_ .f32 0x7FC00000#32))

/-- The standardized points: the affine layer's output less its mean, over the square root of its variance. -/
def xstd (a0 : FVec F S8192x2 .f32) (a1 : FVec F S2x2 .f32) (a2 : FVec F S2 .f32) : FVec F S8192x2 .f32 :=
  Host.divf (subf (lin a0 a1 a2) (broadcastInDim S8192x2 ![] bcast_S_S8192x2 (mean (lin a0 a1 a2))))
    (broadcastInDim S8192x2 ![] bcast_S_S8192x2 (Host.sqrt (var (lin a0 a1 a2))))

end Cert.ReferenceIdeal.Rbf

namespace Cert.Rbf

/-- The two spellings of the chain are one function. -/
theorem xstd_eq (a0 : FVec Ideal Cert.KernelIdeal.S8192x2 .f32) (a1 : FVec Ideal Cert.KernelIdeal.S2x2 .f32)
    (a2 : FVec Ideal Cert.KernelIdeal.S2 .f32) :
    Cert.ReferenceIdeal.Rbf.xstd (F := Ideal) a0 a1 a2 = Cert.KernelIdeal.Rbf.xstd (F := Ideal) a0 a1 a2 := rfl

end Cert.Rbf

end
-- ==== Proof.LibBlocks.lean ====
/-
  Sums and maxima over the rows of a tall table, taken block of rows by block of rows.

  A table of n = a·b rows is cut into a consecutive blocks of b rows; row i lies in block i / b at position
  i % b, and block t, position r is row b·t + r. In a commutative monoid a sum over all rows is the sum over the
  blocks of the sums over each block's rows, and in a complete lattice the supremum over all rows is the supremum
  over the blocks of each block's supremum: both are re-indexings along the bijection (t, r) ↦ b·t + r, and
  neither needs any finiteness of the entries (only associativity and commutativity are used).
  Also: a running total that starts from a seed and adds one block's contribution per step is the seed plus
  the sum of the contributions so far (and likewise for a running maximum), by induction on the step.
-/
import Mathlib.Algebra.BigOperators.Fin
import Mathlib.Algebra.BigOperators.Group.Finset.Basic
import Mathlib.Order.CompleteLattice.Finset
import Mathlib.Data.Fintype.Lattice
import Mathlib.Tactic.Ring
import Mathlib.Logic.Equiv.Fin.Basic
import Mathlib.Data.Fintype.BigOperators

namespace Cert.LibBlocks

/-- Row b·t + r of a table of n = a·b rows. -/
def row {a b n : ℕ} (h : a * b = n) (t : Fin a) (r : Fin b) : Fin n :=
  ⟨b * t.val + r.val, by
    have := t.isLt; have := r.isLt
    calc b * t.val + r.val < b * t.val + b := by omega
      _ = b * (t.val + 1) := by ring
      _ ≤ b * a := Nat.mul_le_mul_left _ (by omega)
      _ = n := by rw [Nat.mul_comm]; exact h⟩

@[simp] theorem row_val {a b n : ℕ} (h : a * b = n) (t : Fin a) (r : Fin b) : (row h t r).val = b * t.val + r.val := rfl

/-- The rows are exactly the block positions: (t, r) ↦ b·t + r is a bijection from blocks × positions. -/
def rowEquiv {a b n : ℕ} (h : a * b = n) : Fin a × Fin b ≃ Fin n :=
  finProdFinEquiv.trans (finCongr h)

theorem rowEquiv_apply {a b n : ℕ} (h : a * b = n) (t : Fin a) (r : Fin b) : rowEquiv h (t, r) = row h t r := by
  apply Fin.ext
  simp [rowEquiv, row, Nat.add_comm]

/-- A sum over all rows is the sum over the blocks of each block's sum. -/
theorem sum_rows {M : Type*} [AddCommMonoid M] {a b n : ℕ} (h : a * b = n) (f : Fin n → M) :
    ∑ i, f i = ∑ t : Fin a, ∑ r : Fin b, f (row h t r) := by
  rw [← Fintype.sum_prod_type' (f := fun t r => f (row h t r))]
  exact (Fintype.sum_equiv (rowEquiv h) (fun p => f (row h p.1 p.2)) f
    (fun p => by rw [← rowEquiv_apply])).symm

/-- A supremum over all rows is the supremum over the blocks of each block's supremum. -/
theorem sup_rows {L : Type*} [CompleteLattice L] {a b n : ℕ} (h : a * b = n) (f : Fin n → L) :
    Finset.univ.sup f = Finset.univ.sup fun t : Fin a => Finset.univ.sup fun r : Fin b => f (row h t r) := by
  simp only [Finset.sup_univ_eq_iSup]
  rw [← (rowEquiv h).iSup_comp (g := f), iSup_prod]
  exact iSup_congr fun t => iSup_congr fun r => by rw [rowEquiv_apply]

/-- A running total: seeded at step 0 with the seed plus the first contribution, then one contribution per step. -/
theorem running_sum {M : Type*} [AddCommMonoid M] (seed : M) (g acc : ℕ → M)
    (h0 : acc 0 = seed + g 0) (hs : ∀ n, acc (n + 1) = acc n + g (n + 1)) (n : ℕ) :
    acc n = seed + ∑ u ∈ Finset.range (n + 1), g u := by
  induction n with
  | zero => simp [h0]
  | succ n ih => rw [hs, ih, Finset.sum_range_succ _ (n + 1), add_assoc]

/-- A running maximum, likewise. -/
theorem running_sup {L : Type*} [SemilatticeSup L] [OrderBot L] (seed : L) (g acc : ℕ → L)
    (h0 : acc 0 = seed ⊔ g 0) (hs : ∀ n, acc (n + 1) = acc n ⊔ g (n + 1)) (n : ℕ) :
    acc n = seed ⊔ (Finset.range (n + 1)).sup g := by
  induction n with
  | zero => simp [h0]
  | succ n ih => rw [hs, ih, Finset.range_add_one (n := n + 1), Finset.sup_insert, sup_assoc, sup_comm (g (n + 1))]

/-- The sum over the first a naturals is the sum over Fin a. -/
theorem sum_range_fin {M : Type*} [AddCommMonoid M] (a : ℕ) (g : ℕ → M) :
    ∑ u ∈ Finset.range a, g u = ∑ t : Fin a, g t.val := (Fin.sum_univ_eq_sum_range g a).symm

/-- The supremum over the first a naturals is the supremum over Fin a. -/
theorem sup_range_fin {L : Type*} [SemilatticeSup L] [OrderBot L] (a : ℕ) (g : ℕ → L) :
    (Finset.range a).sup g = Finset.univ.sup fun t : Fin a => g t.val := by
  apply le_antisymm
  · refine Finset.sup_le fun u hu => ?_
    exact Finset.le_sup (f := fun t : Fin a => g t.val) (Finset.mem_univ (⟨u, Finset.mem_range.mp hu⟩ : Fin a))
  · refine Finset.sup_le fun t _ => ?_
    exact Finset.le_sup (f := g) (Finset.mem_range.mpr t.isLt)

end Cert.LibBlocks
-- ==== Proof.Spec.lean ====
/-
  The common value of the two programs, as one function of the standardized points X (8192 rows of two
  coordinates), the weights W (one row of 8192) and the offset b (one entry).

  For rows r and j write d(r, j) = max(|x_r|² + |x_j|² − 2·⟨x_r, x_j⟩, 0) for the clipped squared distance, spelt
  with the squares and the inner product as sums of two products each, in the order both programs use. The
  pair's weight is (−½·d)·exp(d), and entry r of the result is  Σ_j weight(r, j)·W(0, j)  +  b(0).

  One program takes the sum over j in four consecutive blocks of 2048, adding each block's sum to a running
  total that starts from zero. Addition of extended reals is associative and commutative and the zero pattern
  denotes 0, so the running total after the fourth block is the whole sum: no entry has to be finite.
-/
import Idealize.ShloMosaic.PureOps.Ideal
import Idealize.ShloMosaic.PureOps.Ideal.Laws
import Idealize.ShloMosaic.Lib.ValueIdx
import proofs.«139571_j71691594105115_2_alg».proof.Proof.LibBlocks

noncomputable section

open scoped BigOperators

namespace Cert.Rbf

open Idealize.ShloMosaic Idealize.ShloMosaic.ValueIdx

/-- The three float literals both programs use: 2, 0 and −½, each as the value its pattern denotes. -/
abbrev two : EReal := Ideal.ofBits .f32 0x40000000#32
abbrev zero : EReal := Ideal.ofBits .f32 0x00000000#32
abbrev mhalf : EReal := Ideal.ofBits .f32 0xBF000000#32

theorem zero_eq : zero = 0 := Ideal.ofBits_zero_f32

/-- The clipped squared distance of the points (a0, a1) and (b0, b1). -/
def dist (a0 a1 b0 b1 : EReal) : EReal :=
  max (((a0 * a0 + a1 * a1) + (b0 * b0 + b1 * b1)) - two * (a0 * b0 + a1 * b1)) zero

/-- The weight of a pair of points: (−½·d)·exp(d) of their clipped squared distance d. -/
def pair (a0 a1 b0 b1 : EReal) : EReal :=
  (mhalf * dist a0 a1 b0 b1) * Ideal.exp (dist a0 a1 b0 b1)

/-- Row r's term at column j: the pair's weight times the weight vector's entry j. -/
def term (X : (⟨2, ![8192, 2]⟩ : Shape).Idx → EReal) (W : (⟨2, ![1, 8192]⟩ : Shape).Idx → EReal) (r j : Fin 8192) : EReal :=
  pair (X (ix2 r (0 : Fin 2))) (X (ix2 r (1 : Fin 2))) (X (ix2 j (0 : Fin 2))) (X (ix2 j (1 : Fin 2))) * W (ix2 (0 : Fin 1) j)

/-- Entry r of the result. -/
def entry (X : (⟨2, ![8192, 2]⟩ : Shape).Idx → EReal) (W : (⟨2, ![1, 8192]⟩ : Shape).Idx → EReal)
    (b : (⟨1, ![1]⟩ : Shape).Idx → EReal) (r : Fin 8192) : EReal :=
  (∑ j : Fin 8192, term X W r j) + b (ix1 (0 : Fin 1))

/-- The result, as a table of 8192 entries. -/
def G (X : (⟨2, ![8192, 2]⟩ : Shape).Idx → EReal) (W : (⟨2, ![1, 8192]⟩ : Shape).Idx → EReal)
    (b : (⟨1, ![1]⟩ : Shape).Idx → EReal) : (⟨1, ![8192]⟩ : Shape).Idx → EReal :=
  fun i => entry X W b (i 0)

theorem G_apply (X : (⟨2, ![8192, 2]⟩ : Shape).Idx → EReal) (W : (⟨2, ![1, 8192]⟩ : Shape).Idx → EReal)
    (b : (⟨1, ![1]⟩ : Shape).Idx → EReal) (r : Fin 8192) : G X W b (ix1 r) = entry X W b r := rfl

/-- Column 2048·u + l, for block u of four and position l in the block. -/
abbrev col (u : Fin 4) (l : Fin 2048) : Fin 8192 := Cert.LibBlocks.row (a := 4) (b := 2048) (n := 8192) (by norm_num) u l

theorem col_val (u : Fin 4) (l : Fin 2048) : (col u l).val = 2048 * u.val + l.val := rfl

/-- Block u's share of row r's sum. -/
def part (X : (⟨2, ![8192, 2]⟩ : Shape).Idx → EReal) (W : (⟨2, ![1, 8192]⟩ : Shape).Idx → EReal) (r : Fin 8192) (u : Fin 4) : EReal :=
  ∑ l : Fin 2048, term X W r (col u l)

/-- The running total after blocks 0 … n, from zero: the first block added to zero, then one block per step. -/
def total (X : (⟨2, ![8192, 2]⟩ : Shape).Idx → EReal) (W : (⟨2, ![1, 8192]⟩ : Shape).Idx → EReal) (r : Fin 8192) : (n : ℕ) → n < 4 → EReal
  | 0, h => zero + part X W r ⟨0, h⟩
  | n + 1, h => total X W r n (Nat.lt_of_succ_lt h) + part X W r ⟨n + 1, h⟩

/-- The running total after the fourth block is the whole sum over the 8192 columns. -/
theorem total_last (X : (⟨2, ![8192, 2]⟩ : Shape).Idx → EReal) (W : (⟨2, ![1, 8192]⟩ : Shape).Idx → EReal) (r : Fin 8192) :
    total X W r 3 (by norm_num) = ∑ j : Fin 8192, term X W r j := by
  rw [Cert.LibBlocks.sum_rows (a := 4) (b := 2048) (n := 8192) (by norm_num) (term X W r), Fin.sum_univ_four]
  simp only [total, zero_eq, zero_add, part]
  rfl

end Cert.Rbf

end
-- ==== Proof.HostHead.lean ====
/-
  What the region finds in its first two operands. The lines of @main before the kernel compute the standardized
  points (the shared chain, kept as one function of the three raw argument tables) and their transpose; no line
  before the region writes the weight row, which the region therefore finds as launched.
-/
import proofs.«139571_j71691594105115_2_alg».proof.Proof.Gen.KernelIdeal.Frame
import proofs.«139571_j71691594105115_2_alg».proof.Proof.Std
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.StableHlo

namespace Cert.KernelIdeal.RbfHead

open Cert.KernelIdeal Cert.KernelIdeal.Gen

variable {F : FTy → Type} [FloatOps F]
variable (m : (ℓ : Loc nD τ sig) → Buf (Elt F) ℓ)

attribute [local irreducible] Host.reduceAdd Host.divf Host.sqrt in
set_option maxRecDepth 8192 in
set_option maxHeartbeats 800000 in
/-- The first operand: the standardized points of the launch contents of the three raw tables. -/
theorem v12_eq (c : Dev nD) :
    (V m c main_v12 : FVec F S8192x2 .f32)
      = Cert.KernelIdeal.Rbf.xstd (m ((c.tc : Thread nD τ).loc main_arg0)) (m ((c.tc : Thread nD τ).loc main_arg1))
          (m ((c.tc : Thread nD τ).loc main_arg2)) := by
  dsimp only [V, V0]
  simp only [hostOps0, hostOps0_1, hostOps0_2, List.flatten_cons, List.flatten_nil, List.append_nil, List.cons_append,
    List.nil_append]
  simp only [after_cons, after_nil]
  rfl

attribute [local irreducible] Host.reduceAdd Host.divf Host.sqrt in
set_option maxRecDepth 8192 in
set_option maxHeartbeats 800000 in
/-- The second operand: the first one transposed. -/
theorem v13_eq (c : Dev nD) :
    (V m c main_v13 : FVec F S2x8192 .f32)
      = transpose S2x8192 [1, 0] (V m c main_v12 : FVec F S8192x2 .f32) transposes_S8192x2_S2x8192_1_0 := by
  dsimp only [V, V0]
  simp only [hostOps0, hostOps0_1, hostOps0_2, List.flatten_cons, List.flatten_nil, List.append_nil, List.cons_append,
    List.nil_append]
  simp only [after_cons, after_nil]
  rfl

end Cert.KernelIdeal.RbfHead

end
-- ==== Proof.HostTail.lean ====
/-
  The three lines after the kernel, read at an entry over the extended reals.

  After the kernel the program reads its one-entry offset as a scalar, lays the scalar over 8192 entries, and adds the
  result to the kernel's vector of 8192 entries. So entry r of the final vector is the kernel's entry r plus the offset's
  one entry. The kernel's vector is what the region leaves in its output array; the offset is no array of the region and
  no line before the region writes it, so it still holds what it was launched with.
-/
import proofs.«139571_j71691594105115_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.RbfTail

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The kernel's result vector as the region leaves it. -/
abbrev kernelOut (c : Dev nD) : FVec Ideal S8192 .f32 := (dats m 0 c).arrAt 3 cfg0.N

/-- The offset, a vector of one entry, as launched. -/
abbrev offset (c : Dev nD) : FVec Ideal S1 .f32 := m ((c.tc : Thread nD τ).loc main_arg4)

/-- The result buffer after the three lines that follow the kernel. -/
abbrev result (c : Dev nD) : FVec Ideal S8192 .f32 := Pipeline.afterTail₀ cfgs (dats m) 0 (V0 m) [hostOps1] c main_v17

/-- After the three lines that follow the kernel (the one-entry offset read as a scalar, the scalar laid over 8192
    entries, the sum with the kernel's result vector), entry r of the result buffer is the kernel's entry r plus the
    offset's one entry. The kernel's vector is the array of the kernel's output window, which the lines find as the
    region left it; the offset is no window's array and no earlier line writes it, so it is read as launched. Stated
    with the two tables named A and b, each with the equation that says which table it is. -/
theorem tail_apply_of_eq (c : Dev nD) (r : Fin 8192) (A : FVec Ideal S8192 .f32) (b : FVec Ideal S1 .f32)
    (hA : (dats m 0 c).arrAt 3 cfg0.N = A) (hb : m ((c.tc : Thread nD τ).loc main_arg4) = b) :
    (Pipeline.afterTail₀ cfgs (dats m) 0 (V0 m) [hostOps1] c main_v17 : FVec Ideal S8192 .f32) (ix1 r)
      = A (ix1 r) + b (ix1 (0 : Fin 1)) := by
  subst hA hb
  unfold Pipeline.afterTail₀
  show StableHlo.after hostOps1 _ (Proc.devRef .tc main_v17) (ix1 r) = _
  after_results
  refine (addf_apply (s := S8192) (φ := .f32) _ _ (ix1 r)).trans ?_
  refine congrArg₂ (fun x y : EReal => x + y) ?_ ?_
  · exact congrFun (Pipeline.withArrays_arr spec0 launch0.win.arr_inj c _ _ 3) (ix1 r)
  · refine (broadcastInDim_scalar_apply bcast_S_S8192 _ (ix1 r)).trans ?_
    show shapeCast S_ _ shapeCasts_S1_S_ ix0 = _
    refine (shapeCast_apply _ shapeCasts_S1_S_ ix0 (ix1 (0 : Fin 1)) ?_).trans ?_
    · rw [Shape.rowMajor_val_one]
      have h1 : (S_.rowMajor ix0).val < 1 := (S_.rowMajor ix0).isLt
      show 0 = (S_.rowMajor ix0).val
      omega
    · exact congrFun ((Pipeline.withArrays_of_ne _ c (V0 m c) _ main_arg4 (by decide)).trans (V_main_arg4 m c)) (ix1 (0 : Fin 1))

/-- The same with the three tables under their names: entry r of the result is the kernel's entry r plus the offset's one
    entry. -/
theorem tail_apply (c : Dev nD) (r : Fin 8192) :
    result m c (ix1 r) = kernelOut m c (ix1 r) + offset m c (ix1 (0 : Fin 1)) :=
  tail_apply_of_eq m c r _ _ rfl rfl

end Cert.KernelIdeal.RbfTail

end
-- ==== Proof.Blocks.lean ====
/-
  Where each block sits in its array. The grid has 16 × 4 points; point t has row-block index t / 4 and
  key-block index t % 4. At point t the query window reads rows 512·(t / 4) … + 511 of the standardized points,
  the key window reads columns 2048·(t % 4) … + 2047 of their transpose, the weight window is the whole weight
  row at every point, and the output window is entries 512·(t / 4) … + 511 of the result vector.
-/
import proofs.«139571_j71691594105115_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.RbfBlocks

open Cert.KernelIdeal Cert.KernelIdeal.Gen

variable {F : FTy → Type} [FloatOps F]
variable (m : (ℓ : Loc nD τ sig) → Buf (Elt F) ℓ)

/-- The four index maps and the key-block coordinate at every grid point. -/
theorem idx_facts : ∀ t : Fin cfg0.N,
    (win0_0.index t 0 = t.val / 4 ∧ win0_0.index t 1 = 0) ∧ (win0_1.index t 0 = 0 ∧ win0_1.index t 1 = t.val % 4)
      ∧ (win0_2.index t 0 = 0 ∧ win0_2.index t 1 = 0) ∧ win0_3.index t 0 = t.val / 4 ∧ (grid0.coords t 1).val = t.val % 4 :=
  (by decide +kernel : ∀ t : Fin grid0.N,
    (win0_0.index t 0 = t.val / 4 ∧ win0_0.index t 1 = 0) ∧ (win0_1.index t 0 = 0 ∧ win0_1.index t 1 = t.val % 4)
      ∧ (win0_2.index t 0 = 0 ∧ win0_2.index t 1 = 0) ∧ win0_3.index t 0 = t.val / 4 ∧ (grid0.coords t 1).val = t.val % 4)

/-- The query block at point t: its row q is row 512·(t / 4) + q of the standardized points. -/
theorem iblk0_apply (c : Dev nD) (t : Fin cfg0.N) (q : Fin 512) (k : Fin 2) (r : Fin 8192)
    (hr : r.val = 512 * (t.val / 4) + q.val) :
    (iblk m c 0 t : Vec F S512x2 .f32) (ix2 q k) = V m c main_v12 (ix2 r k) := by
  have hi := (idx_facts t).1
  unfold iblk
  rw [View.read_apply]
  show V m c main_v12 _ = V m c main_v12 _
  congr 1
  funext a
  apply Fin.ext
  match a with
  | ⟨0, _⟩ => show win0_0.index t 0 * 512 + 1 * q.val = r.val; rw [hi.1, hr]; omega
  | ⟨1, _⟩ => show win0_0.index t 1 * 2 + 1 * k.val = k.val; rw [hi.2]; omega

/-- The key block at point t: its column l is column 2048·(t % 4) + l of the transposed points. -/
theorem iblk1_apply (c : Dev nD) (t : Fin cfg0.N) (k : Fin 2) (l : Fin 2048) (j : Fin 8192)
    (hj : j.val = 2048 * (t.val % 4) + l.val) :
    (iblk m c 1 t : Vec F S2x2048 .f32) (ix2 k l) = V m c main_v13 (ix2 k j) := by
  have hi := (idx_facts t).2.1
  unfold iblk
  rw [View.read_apply]
  show V m c main_v13 _ = V m c main_v13 _
  congr 1
  funext a
  apply Fin.ext
  match a with
  | ⟨0, _⟩ => show win0_1.index t 0 * 2 + 1 * k.val = k.val; rw [hi.1]; omega
  | ⟨1, _⟩ => show win0_1.index t 1 * 2048 + 1 * l.val = j.val; rw [hi.2, hj]; omega

/-- The weight block at every point is the whole weight row. -/
theorem iblk2_apply (c : Dev nD) (t : Fin cfg0.N) (j : Fin 8192) :
    (iblk m c 2 t : Vec F S1x8192 .f32) (ix2 (0 : Fin 1) j) = V m c main_arg3 (ix2 (0 : Fin 1) j) := by
  have hi := (idx_facts t).2.2.1
  unfold iblk
  rw [View.read_apply]
  show V m c main_arg3 _ = V m c main_arg3 _
  congr 1
  funext a
  apply Fin.ext
  match a with
  | ⟨0, _⟩ => show win0_2.index t 0 * 1 + 1 * 0 = 0; rw [hi.1]
  | ⟨1, _⟩ => show win0_2.index t 1 * 8192 + 1 * j.val = j.val; rw [hi.2]; omega

end Cert.KernelIdeal.RbfBlocks

end
-- ==== Proof.Pieces.lean ====
/-
  What the kernel body leaves in the output's staging block at one grid point, as a value.

  The body reads its block of 512 query rows, its block of 2048 key columns and, from the whole weight row, the
  2048 entries that belong to the point's key block; it then overwrites the output block with
  (previous contents) + (for each query row, the sum over the 2048 keys of weight(row, key) · W(key)).
  At a point whose key-block index is 0 the "previous contents" are the zero block the body has just stored and
  read back; at every other point they are what the point before left. Both facts are read off the one covering
  store each case ends with, whose loads go through the buffers' whole rectangles (and, for the weights, through the
  1 × 2048 rectangle at column offset 2048·(key-block index)).
-/
import proofs.«139571_j71691594105115_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.RbfPieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

/-- The part of the weight row the point at coordinates i reads: columns 2048·i₁ … 2048·i₁ + 2047, as a 1 × 2048 table. -/
def wslice (i : grid0.Coords) (x2 : Vec F S1x8192 .f32) : Vec F S1x2048 .f32 :=
  View.ld x2 (Rect.unit (s := S1x8192) (k0_off1 i) S1x2048.size (k0_off1_inb i))

/-- Entry (0, l) of that part is entry (0, 2048·i₁ + l) of the row. -/
theorem wslice_apply (i : grid0.Coords) (x2 : Vec F S1x8192 .f32) (l : Fin 2048) (j : Fin 8192)
    (hj : j.val = 2048 * (i 1).val + l.val) :
    wslice i x2 (ix2 (0 : Fin 1) l) = x2 (ix2 (0 : Fin 1) j) := by
  unfold wslice View.ld
  refine congrArg x2 (funext fun a => Fin.ext ?_)
  match a with
  | ⟨0, _⟩ => show k0_off1 i 0 + 1 * 0 = 0; rw [k0_off1_eq]; rfl
  | ⟨1, _⟩ => show k0_off1 i 1 + 1 * l.val = j.val; rw [k0_off1_eq, hj]; show 2048 * (i 1).val + 1 * l.val = _; omega

/-- A point that does not start its row block: the block ends at the previous contents plus the point's share. -/
theorem out_B (c : Dev nD) (i : grid0.Coords) (a2 : Memref sig .tc .vmem S512x2 .f32) (h2 : a2.IsWhole)
    (a3 : Memref sig .tc .vmem S2x2048 .f32) (h3 : a3.IsWhole) (a4 : Memref sig .tc .vmem S1x8192 .f32) (h4 : a4.IsWhole)
    (a5 : Memref sig .tc .vmem S512 .f32) (h5 : a5.IsWhole) (hc : ¬cond0_0 i)
    (x0 : Vec F S512x2 .f32) (x1 : Vec F S2x2048 .f32) (x2 : Vec F S1x8192 .f32) (xo : Vec F S512 .f32) :
    out0_B_3 c i a2 h2 a3 h3 a4 h4 a5 h5 hc x0 x1 x2 xo = k0_pay1 (k0_pay3 x0 x1) (k0_pay4 (wslice i x2)) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz1]
  simp only [View.readAt_eq_ld, h2.read_unread, h3.read_unread, h4.read_unread, h5.read_unread,
    View.ld_unit_zero (S := S512x2) hz2, View.ld_unit_zero (S := S2x2048) hz2, View.ld_unit_zero (S := S512) hz1]
  rfl

/-- A point that starts its row block: the same over the zero block. -/
theorem out_A (c : Dev nD) (i : grid0.Coords) (a2 : Memref sig .tc .vmem S512x2 .f32) (h2 : a2.IsWhole)
    (a3 : Memref sig .tc .vmem S2x2048 .f32) (h3 : a3.IsWhole) (a4 : Memref sig .tc .vmem S1x8192 .f32) (h4 : a4.IsWhole)
    (a5 : Memref sig .tc .vmem S512 .f32) (h5 : a5.IsWhole) (hc : cond0_0 i)
    (x0 : Vec F S512x2 .f32) (x1 : Vec F S2x2048 .f32) (x2 : Vec F S1x8192 .f32) :
    out0_A_3 c i a2 h2 a3 h3 a4 h4 a5 h5 hc x0 x1 x2 = k0_pay1 (k0_pay3 x0 x1) (k0_pay4 (wslice i x2)) k0_pay2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S512) hz1, View.readCov_unit_zero (S := S512) _ hz1]
  simp only [View.readAt_eq_ld, h2.read_unread, h3.read_unread, h4.read_unread,
    View.ld_unit_zero (S := S512x2) hz2, View.ld_unit_zero (S := S2x2048) hz2, View.ld_unit_zero (S := S512) hz1]
  rfl

end Cert.KernelIdeal.RbfPieces

end
-- ==== Proof.PointValue.lean ====
/-
  One grid point's arithmetic, read entry by entry over the extended reals.

  A grid point holds 512 query rows (a 512 × 2 table of points, one point per row) and 2048 key columns (a 2 × 2048
  table, one point per column), the 2048 weights of those columns as one row, and the previous contents of its 512
  results. The table of pair weights is built from columns and rows of the two point tables: a column of the query table
  is cut out and repeated along the 2048 columns, a row of the key table is cut out, flattened, laid back as one row and
  repeated down the 512 rows, and everything between is entrywise. So entry (q, l) of the pair-weight table is the pair
  weight of query row q and key column l, and the new contents at row q are the previous entry plus the sum over l of
  that weight times the column's weight.

  First the layout steps, each read at an entry given by its coordinates; then the sum along the columns as a sum over
  the 2048 column positions; then the three reads.
-/
import proofs.«139571_j71691594105115_2_alg».proof.Proof.Gen.KernelIdeal.Skeleton
import proofs.«139571_j71691594105115_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RbfPoint

open Idealize.ShloMosaic Idealize.ShloMosaic.ValueIdx Cert.KernelIdeal

variable {α : Type}

/-! ## Layout steps read at an entry -/

/-- A table of one column repeated along b columns: entry (p, c) is the column's entry p. -/
theorem col_bcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column 0 of a table of two columns, cut out as a one-column table. -/
theorem slice_col0_apply {a : ℕ} (X : (⟨2, ![a, 2]⟩ : Shape).Idx → α)
    (h : (⟨2, ![a, 2]⟩ : Shape).Slices ![0, 0] ⟨2, ![a, 1]⟩) (p : Fin a) (u : Fin 1) :
    extractStridedSlice ⟨2, ![a, 1]⟩ ![0, 0] X h (ix2 p u) = X (ix2 p (0 : Fin 2)) :=
  slice2_axis1_apply 0 X h p u (0 : Fin 2) (by have := u.isLt; show 0 = 0 + u.val; omega)

/-- Column 1 of a table of two columns, cut out as a one-column table. -/
theorem slice_col1_apply {a : ℕ} (X : (⟨2, ![a, 2]⟩ : Shape).Idx → α)
    (h : (⟨2, ![a, 2]⟩ : Shape).Slices ![0, 1] ⟨2, ![a, 1]⟩) (p : Fin a) (u : Fin 1) :
    extractStridedSlice ⟨2, ![a, 1]⟩ ![0, 1] X h (ix2 p u) = X (ix2 p (1 : Fin 2)) :=
  slice2_axis1_apply 1 X h p u (1 : Fin 2) (by have := u.isLt; show 1 = 1 + u.val; omega)

/-- Row 0 of a table of two rows, cut out as a one-row table. -/
theorem slice_row0_apply {b : ℕ} (X : (⟨2, ![2, b]⟩ : Shape).Idx → α)
    (h : (⟨2, ![2, b]⟩ : Shape).Slices ![0, 0] ⟨2, ![1, b]⟩) (u : Fin 1) (c : Fin b) :
    extractStridedSlice ⟨2, ![1, b]⟩ ![0, 0] X h (ix2 u c) = X (ix2 (0 : Fin 2) c) :=
  slice2_axis0_apply 0 X h u c (0 : Fin 2) (by have := u.isLt; show 0 = 0 + u.val; omega)

/-- Row 1 of a table of two rows, cut out as a one-row table. -/
theorem slice_row1_apply {b : ℕ} (X : (⟨2, ![2, b]⟩ : Shape).Idx → α)
    (h : (⟨2, ![2, b]⟩ : Shape).Slices ![1, 0] ⟨2, ![1, b]⟩) (u : Fin 1) (c : Fin b) :
    extractStridedSlice ⟨2, ![1, b]⟩ ![1, 0] X h (ix2 u c) = X (ix2 (1 : Fin 2) c) :=
  slice2_axis0_apply 1 X h u c (1 : Fin 2) (by have := u.isLt; show 1 = 1 + u.val; omega)

/-- The exponential of a table, read at an index, is the exponential of the entry. -/
theorem exp_apply {s : Shape} {φ : FTy} (a : FVec Ideal s φ) (i : s.Idx) :
    Idealize.ShloMosaic.exp a i = Ideal.exp (a i) := rfl

/-! ## The sum along the columns, and the weights' row -/

/-- The weights' row repeated down the rows, read at (row q, column l): the weight of column l. -/
theorem pay4_apply (w : Vec Ideal S1x2048 .f32) (q : Fin 512) (l : Fin 2048) :
    Gen.k0_pay4 (F := Ideal) w (ix2 q l) = w (ix2 (0 : Fin 1) l) := by
  unfold Gen.k0_pay4
  exact broadcastTo_1b_ab_apply w _ q l

/-- The index over row q with column k put back on the summed axis is (q, k). -/
theorem lift_row (h : S512x2048.Reduces [1] S512) (q : Fin 512) (k : Fin 2048) :
    h.lift (ix1 q) k = ix2 q k :=
  funext fun c => Fin.ext (by
    match c with
    | ⟨0, _⟩ => rfl
    | ⟨1, _⟩ => rfl)

/-- The sum along the columns of a 512 × 2048 table, from the zero pattern, read at row q: the sum of row q's 2048
    entries. -/
theorem lane_sum_apply (src : FVec Ideal S512x2048 .f32) (h : S512x2048.Reduces [1] S512) (hφ : FKind.Formats .f32)
    (hacc : (0x00000000#32 : BitVec 32) = 0x00000000#32) (q : Fin 512) :
    multiReduction (F := Ideal) .add [1] S512 src 0x00000000#32 h hφ hacc (ix1 q) = ∑ l : Fin 2048, src (ix2 q l) := by
  refine (Ideal.multiReduction_add_single src 0x00000000#32 h hφ hacc (ix1 q)).trans ?_
  show (∑ k : Fin 2048, src (h.lift (ix1 q) k)) = _
  exact Finset.sum_congr rfl fun k _ => congrArg src (lift_row h q k)

/-! ## The three reads -/

/-- The pair weights of one grid point, read at (row q, column l): the weight of the pair made of query row q and key
    column l. Every layout step (a column cut out and repeated along the columns, a row cut out, flattened, laid back as
    one row and repeated down the rows) reads one entry of a point table; the arithmetic between is entrywise. -/
theorem pay3_apply (x0 : Vec Ideal S512x2 .f32) (x1 : Vec Ideal S2x2048 .f32) (q : Fin 512) (l : Fin 2048) :
    Gen.k0_pay3 (F := Ideal) x0 x1 (ix2 q l)
      = Cert.Rbf.pair (x0 (ix2 q (0 : Fin 2))) (x0 (ix2 q (1 : Fin 2))) (x1 (ix2 (0 : Fin 2) l)) (x1 (ix2 (1 : Fin 2) l)) := by
  unfold Gen.k0_pay3
  simp only [shapeCast_self, mulf_apply, addf_apply, subf_apply, maximumf_apply, broadcast_apply, exp_apply,
    col_bcast_apply, broadcastTo_1b_ab_apply, shapeCast_a_1a_apply, shapeCast_1a_a_apply,
    slice_col0_apply, slice_col1_apply, slice_row0_apply, slice_row1_apply, Ideal.ofBits_def]
  rfl

/-- The block's new contents at row q: the previous entry plus the sum over the point's 2048 columns of the pair's weight
    times the column's weight. -/
theorem pay1_apply (x0 : Vec Ideal S512x2 .f32) (x1 : Vec Ideal S2x2048 .f32) (w : Vec Ideal S1x2048 .f32) (prev : Vec Ideal S512 .f32) (q : Fin 512) :
    Gen.k0_pay1 (F := Ideal) (Gen.k0_pay3 x0 x1) (Gen.k0_pay4 w) prev (ix1 q)
      = prev (ix1 q) + ∑ l : Fin 2048,
          Cert.Rbf.pair (x0 (ix2 q (0 : Fin 2))) (x0 (ix2 q (1 : Fin 2))) (x1 (ix2 (0 : Fin 2) l)) (x1 (ix2 (1 : Fin 2) l)) * w (ix2 (0 : Fin 1) l) := by
  unfold Gen.k0_pay1
  simp only [shapeCast_self, addf_apply]
  refine congrArg (fun z => prev (ix1 q) + z) ?_
  refine (lane_sum_apply _ _ _ _ q).trans ?_
  refine Finset.sum_congr rfl fun l _ => ?_
  rw [mulf_apply, pay3_apply, pay4_apply]

/-- The zero block, read at any row: the value the zero pattern denotes. -/
theorem pay2_apply (q : Fin 512) : Gen.k0_pay2 (F := Ideal) (ix1 q) = Cert.Rbf.zero := rfl

end Cert.KernelIdeal.RbfPoint

end
-- ==== Proof.Accum.lean ====
/-
  The running total the output block carries across a row block's four grid points.

  Point n has row-block index n / 4 and key-block index n % 4. Its body adds, to what the output block held before,
  key block n % 4's share of each of its 512 rows' sums; at a point with key-block index 0 "before" is the zero
  block. So after point n, row q of the block holds the running total of row 512·(n / 4) + q over key blocks
  0 … n % 4, starting from zero: by induction on the point, with the blocks read where they sit in their arrays and
  the key operand read as the transpose of the query operand.
-/
import proofs.«139571_j71691594105115_2_alg».proof.Proof.Gen.KernelIdeal.Frame
import proofs.«139571_j71691594105115_2_alg».proof.Proof.Spec
import proofs.«139571_j71691594105115_2_alg».proof.Proof.Pieces
import proofs.«139571_j71691594105115_2_alg».proof.Proof.Blocks
import proofs.«139571_j71691594105115_2_alg».proof.Proof.HostHead
import proofs.«139571_j71691594105115_2_alg».proof.Proof.PointValue
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx

namespace Cert.KernelIdeal.RbfAccum

open Cert.KernelIdeal Cert.KernelIdeal.Gen Cert.Rbf
open Cert.KernelIdeal.RbfPieces Cert.KernelIdeal.RbfBlocks

variable (m : (ℓ : Loc nD τ sig) → Buf (Elt Ideal) ℓ)

/-- The key operand is the transpose of the query operand: its entry (k, j) is the point j's coordinate k. -/
theorem xt_apply (c : Dev nD) (k : Fin 2) (j : Fin 8192) :
    (V m c main_v13 : FVec Ideal S2x8192 .f32) (ix2 k j) = (V m c main_v12 : FVec Ideal S8192x2 .f32) (ix2 j k) := by
  rw [Cert.KernelIdeal.RbfHead.v13_eq]
  exact transpose_ix2_apply _ _ k j

/-- One point's contribution to row 512·(t / 4) + q of the result: what the body adds to the previous contents at
    that row is key block t % 4's share of the row's sum. -/
theorem share (c : Dev nD) (t : Fin cfg0.N) (q : Fin 512) (r : Fin 8192) (hr : r.val = 512 * (t.val / 4) + q.val)
    (u : Fin 4) (hu : u.val = t.val % 4) (prev : Vec Ideal S512 .f32) :
    k0_pay1 (F := Ideal) (k0_pay3 (iblk m c 0 t) (iblk m c 1 t)) (k0_pay4 (wslice (grid0.coords t) (iblk m c 2 t))) prev (ix1 q)
      = prev (ix1 q) + part (V m c main_v12) (V m c main_arg3) r u := by
  refine (Cert.KernelIdeal.RbfPoint.pay1_apply (iblk m c 0 t) (iblk m c 1 t) (wslice (grid0.coords t) (iblk m c 2 t)) prev q).trans ?_
  unfold part
  refine congrArg (fun s => prev (ix1 q) + s) (Finset.sum_congr rfl fun l _ => ?_)
  have hj : (col u l).val = 2048 * (t.val % 4) + l.val := by rw [col_val, hu]
  have hw : (col u l).val = 2048 * (grid0.coords t 1).val + l.val := by rw [hj, (idx_facts t).2.2.2.2]
  rw [iblk0_apply m c t q 0 r hr, iblk0_apply m c t q 1 r hr, iblk1_apply m c t 0 l (col u l) hj,
    iblk1_apply m c t 1 l (col u l) hj, xt_apply, xt_apply, wslice_apply (grid0.coords t) _ l (col u l) hw, iblk2_apply]
  rfl

/-- After point n the output block holds, at row q, the running total of row 512·(n / 4) + q's sum over key blocks
    0 … n % 4: by induction on the point, a point that starts a row block restarting from zero. -/
theorem outsAt_eq (c : Dev nD) : ∀ (n : ℕ) (h : n < cfg0.N) (q : Fin 512) (r : Fin 8192) (k : ℕ) (hk4 : k < 4),
    r.val = 512 * (n / 4) + q.val → k = n % 4 →
    outsAt0 m c n h (ix1 q) = total (V m c main_v12) (V m c main_arg3) r k hk4
  | 0, h, q, r, k, hk4, hr, hk => by
    obtain rfl : k = 0 := hk
    rw [outsAt0_A m c ⟨0, h⟩ rfl, out_A]
    refine (share m c ⟨0, h⟩ q r hr ⟨0, hk4⟩ rfl _).trans ?_
    rw [Cert.KernelIdeal.RbfPoint.pay2_apply]
    rfl
  | n + 1, h, q, r, k, hk4, hr, hk => by
    by_cases h0 : (n + 1) % 4 = 0
    · obtain rfl : k = 0 := hk.trans h0
      rw [outsAt0_A m c ⟨n + 1, h⟩ h0, out_A]
      refine (share m c ⟨n + 1, h⟩ q r hr ⟨0, hk4⟩ h0.symm _).trans ?_
      rw [Cert.KernelIdeal.RbfPoint.pay2_apply]
      rfl
    · obtain ⟨k', rfl⟩ : ∃ k', k = k' + 1 := ⟨k - 1, by omega⟩
      have hk' : k' = n % 4 := by omega
      have hr' : r.val = 512 * (n / 4) + q.val := by rw [hr]; omega
      rw [outsAt0_B m c ⟨n + 1, h⟩ h0, out_B]
      refine (share m c ⟨n + 1, h⟩ q r hr ⟨k' + 1, hk4⟩ hk _).trans ?_
      show outsAt0 m c n _ (ix1 q) + _ = total _ _ r k' _ + _
      rw [outsAt_eq c n _ q r k' _ hr' hk']

end Cert.KernelIdeal.RbfAccum

end
-- ==== Proof.Final.lean ====
/-
  The kernel's result array after the run, as one function.

  The output window's block at point t is entries 512·(t / 4) … + 511 of the result vector, and it is written back
  only at the last of a row block's four points (t % 4 = 3). By then each of its rows carries the running total over
  all four key blocks, which is the row's whole sum over the 8192 columns. Every entry i lies in the block of the
  point 4·(i / 512) + 3, so the write-backs cover the array and it ends at the vector of whole sums.
  (The steps from the blocks to the array follow the library's cover theorem: what a flushing point writes is the
  function read through the point's block; every index is in some flushing point's block.)
-/
import proofs.«139571_j71691594105115_2_alg».proof.Proof.Gen.KernelIdeal.Frame
import proofs.«139571_j71691594105115_2_alg».proof.Proof.Spec
import proofs.«139571_j71691594105115_2_alg».proof.Proof.Blocks
import proofs.«139571_j71691594105115_2_alg».proof.Proof.Accum
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.RbfFinal

open Cert.KernelIdeal Cert.KernelIdeal.Gen Cert.Rbf Cert.KernelIdeal.RbfBlocks

variable (m : (ℓ : Loc nD τ sig) → Buf (Elt Ideal) ℓ)

/-- The vector the kernel leaves: entry r is row r's whole sum over the 8192 columns, of the standardized points and
    the weight row as the region finds them. -/
def res (c : Dev nD) : FVec Ideal S8192 .f32 :=
  fun i => ∑ j : Fin 8192, term (V m c main_v12) (V m c main_arg3) (i 0) j

theorem res_apply (c : Dev nD) (r : Fin 8192) :
    res m c (ix1 r) = ∑ j : Fin 8192, term (V m c main_v12) (V m c main_arg3) r j := rfl

/-- A point that writes its output block back is the last of its row block's four; by then the block's running
    totals are the whole sums, so what it writes is the result vector read through the point's block. -/
theorem flushed_eq (c : Dev nD) (t : Fin cfg0.N) (hf : (cfg0.win 3).flush t = true) :
    (dats m 0 c).flushed 3 t = ((cfg0.win 3).blk t).view.read (Elt Ideal) (res m c) := by
  have h3 : t.val % 4 = 3 := (flush0_3 t).mp hf
  have hN : t.val < 64 := lt_of_lt_of_eq t.isLt (show cfg0.N = 64 from N_0)
  show (cfg0.win 3).cut (grid0.coords t) ((dats m 0 c).after 3 t) = _
  rw [after0_3]
  funext j
  have hq : (j 0).val < 512 := (j 0).isLt
  have ej : (j : S512.Idx) = ix1 (⟨(j 0).val, hq⟩ : Fin 512) := funext fun d => match d with | ⟨0, _⟩ => rfl
  have hr : 512 * (t.val / 4) + (j 0).val < 8192 := by omega
  have er : ((cfg0.win 3).blk t).view.emb j = ix1 (⟨512 * (t.val / 4) + (j 0).val, hr⟩ : Fin 8192) := by
    funext a
    apply Fin.ext
    match a with
    | ⟨0, _⟩ => show win0_3.index t 0 * 512 + 1 * (j 0).val = 512 * (t.val / 4) + (j 0).val
                rw [(idx_facts t).2.2.2.1]; omega
  rw [View.read_apply, er, res_apply]
  refine (congrArg (outsAt0 m c t.val t.isLt) ej).trans ?_
  rw [Cert.KernelIdeal.RbfAccum.outsAt_eq m c t.val t.isLt ⟨(j 0).val, hq⟩ ⟨512 * (t.val / 4) + (j 0).val, hr⟩ 3 (by norm_num) rfl h3.symm,
    total_last]
  exact (cast_eq _ _).symm

/-- Entry i of the result vector lies in the output block of the point 4·(i / 512) + 3, which writes back. -/
theorem cover (c : Dev nD) (i : S8192.Idx) :
    ∃ t : Fin cfg0.N, (cfg0.win 3).flush t = true ∧ i ∈ ((cfg0.win 3).blk t).view.set := by
  have hi : (i 0).val < 8192 := (i 0).isLt
  have hN : cfg0.N = 64 := N_0
  have ht : 4 * ((i 0).val / 512) + 3 < cfg0.N := by rw [hN]; omega
  refine ⟨⟨4 * ((i 0).val / 512) + 3, ht⟩, (flush0_3 _).mpr (by show (4 * ((i 0).val / 512) + 3) % 4 = 3; omega), ?_⟩
  show i ∈ ((View.whole main_v14).slice (win0_3.rect ⟨4 * ((i 0).val / 512) + 3, ht⟩)).set
  rw [View.set_slice_whole, Rect.mem_set_unit]
  intro a
  match a with
  | ⟨0, _⟩ =>
    show win0_3.index ⟨4 * ((i 0).val / 512) + 3, ht⟩ 0 * 512 ≤ (i 0).val
      ∧ (i 0).val < win0_3.index ⟨4 * ((i 0).val / 512) + 3, ht⟩ 0 * 512 + 512
    rw [(idx_facts ⟨4 * ((i 0).val / 512) + 3, ht⟩).2.2.2.1]
    show (4 * ((i 0).val / 512) + 3) / 4 * 512 ≤ (i 0).val ∧ (i 0).val < (4 * ((i 0).val / 512) + 3) / 4 * 512 + 512
    omega

/-- So the kernel's result array ends at the result vector. -/
theorem final (c : Dev nD) : (dats m 0 c).arrAt 3 cfg0.N = res m c :=
  (dats m 0 c).arrAt_eq_of_cover 3 (res m c) (flushed_eq m c) (cover c)

end Cert.KernelIdeal.RbfFinal

end
-- ==== Proof.KernelValue.lean ====
/-
  The idealized kernel program's run, read as a value: every weakly fair execution ends with the result buffer at
  G(standardized points, weight row, offset) of the launch contents, and the five argument tables unchanged.

  The kernel leaves in its output array, entry by entry, each row's whole sum (the running totals of the four key
  blocks, flushed by the last point of each row block, and those flushes cover the array); the lines after the kernel
  add the offset to every entry; and the kernel's first operand is the standardized points, its weight operand the
  weight row as launched.
-/
import proofs.«139571_j71691594105115_2_alg».proof.Proof.Gen.KernelIdeal.Frame
import proofs.«139571_j71691594105115_2_alg».proof.Proof.Spec
import proofs.«139571_j71691594105115_2_alg».proof.Proof.Std
import proofs.«139571_j71691594105115_2_alg».proof.Proof.HostHead
import proofs.«139571_j71691594105115_2_alg».proof.Proof.HostTail
import proofs.«139571_j71691594105115_2_alg».proof.Proof.Final
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.RbfValue

open Cert.KernelIdeal Cert.KernelIdeal.Gen Cert.Rbf

variable (m : (ℓ : Loc nD τ sig) → Buf (Elt Ideal) ℓ) (ρ : Dev nD → PrngReg)

/-- What the result buffer holds after the lines that follow the kernel. -/
theorem result_eq (c : Dev nD) :
    (Pipeline.afterTail₀ cfgs (dats m) 0 (V0 m) [hostOps1] c main_v17 : FVec Ideal S8192 .f32)
      = G (Cert.KernelIdeal.Rbf.xstd (F := Ideal) (m ((c.tc : Thread nD τ).loc main_arg0)) (m ((c.tc : Thread nD τ).loc main_arg1))
            (m ((c.tc : Thread nD τ).loc main_arg2)))
          (m ((c.tc : Thread nD τ).loc main_arg3)) (m ((c.tc : Thread nD τ).loc main_arg4)) := by
  funext i
  obtain ⟨r, rfl⟩ : ∃ r : Fin 8192, i = ix1 r := ⟨i 0, eq_ix1 i⟩
  refine (Cert.KernelIdeal.RbfTail.tail_apply_of_eq m c r (Cert.KernelIdeal.RbfFinal.res m c)
    (m ((c.tc : Thread nD τ).loc main_arg4)) (Cert.KernelIdeal.RbfFinal.final m c) rfl).trans ?_
  rw [Cert.KernelIdeal.RbfFinal.res_apply, G_apply]
  unfold entry
  rw [Cert.KernelIdeal.RbfHead.v12_eq, V_main_arg3]

/-- The run: the result at G of the launch contents, the arguments as launched. -/
theorem run : θ_run defs (onTc (τ := τ) (main (F := Ideal))) ⟨m, fun _ => 0, ρ⟩ (fun r => ∀ c : Dev nD,
      r.2.mem ((c.tc : Thread nD τ).loc main_v17)
          = G (Cert.KernelIdeal.Rbf.xstd (F := Ideal) (m ((c.tc : Thread nD τ).loc main_arg0)) (m ((c.tc : Thread nD τ).loc main_arg1))
                (m ((c.tc : Thread nD τ).loc main_arg2)))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.KernelIdeal.RbfValue

end
-- ==== Proof.RefTail.lean ====
/-
  What the plain program does with the standardized points X, the weights W and the offset b, as one function:
  each row's squared norm (the two squares summed from zero), laid out down the rows and along the columns and added;
  twice the table of inner products X·Xᵀ subtracted; the maximum with zero; (−½·d)·exp(d) of that; the product of
  this 8192 × 8192 table with the weights as a column; the offset added to every entry; and the one-column result
  read as a vector.
-/
import proofs.«139571_j71691594105115_2_alg».proof.Proof.Gen.ReferenceIdeal
import Idealize.ShloMosaic.PureOps.Ideal

noncomputable section

open Idealize.ShloMosaic

namespace Cert.ReferenceIdeal.Rbf

open Cert.ReferenceIdeal Cert.ReferenceIdeal.Facts₀ Cert.ReferenceIdeal.Facts

variable {F : FTy → Type} [FloatOps F]

/-- Each row's squared norm: the entrywise squares summed along the row, from zero. -/
def sqn (X : FVec F S8192x2 .f32) : FVec F S8192 .f32 :=
  Host.reduceAdd (mulf X X) (constant S_ .f32 0x00000000#32) reducesTo_S8192x2_S8192_d1 h_S_

/-- The table of clipped squared distances. -/
def kmat (X : FVec F S8192x2 .f32) : FVec F S8192x8192 .f32 :=
  maximumf
    (subf
      (addf (broadcastInDim S8192x8192 ![0, 1] bcast_S8192x1_S8192x8192_0_1 (broadcastInDim S8192x1 ![0] bcast_S8192_S8192x1_0 (sqn X)))
        (broadcastInDim S8192x8192 ![0, 1] bcast_S1x8192_S8192x8192_0_1 (broadcastInDim S1x8192 ![1] bcast_S8192_S1x8192_1 (sqn X))))
      (mulf (broadcastInDim S8192x8192 ![] bcast_S_S8192x8192 (constant S_ .f32 0x40000000#32))
        (Host.dotGeneral dot_S8192x2_S2x8192_S8192x8192_1_0_0_1_n_n none X (transpose S2x8192 [1, 0] X transposes_S8192x2_S2x8192_1_0))))
    (broadcastInDim S8192x8192 ![] bcast_S_S8192x8192 (constant S_ .f32 0x00000000#32))

/-- The table of pair weights (−½·d)·exp(d). -/
def wmat (X : FVec F S8192x2 .f32) : FVec F S8192x8192 .f32 :=
  mulf (mulf (broadcastInDim S8192x8192 ![] bcast_S_S8192x8192 (constant S_ .f32 0xBF000000#32)) (kmat X)) (Host.exp (kmat X))

/-- The result vector from the standardized points, the weights and the offset. -/
def tail (X : FVec F S8192x2 .f32) (a3 : FVec F S1x8192 .f32) (a4 : FVec F S1 .f32) : FVec F S8192 .f32 :=
  shapeCast S8192
    (addf
      (Host.dotGeneral dot_S8192x8192_S8192x1_S8192x1_1_0_0_1_n_n none (wmat X) (transpose S8192x1 [1, 0] a3 transposes_S1x8192_S8192x1_1_0))
      (broadcastInDim S8192x1 ![0, 1] bcast_S1x1_S8192x1_0_1 (broadcastInDim S1x1 ![1] bcast_S1_S1x1_1 a4)))
    shapeCasts_S8192x1_S8192

end Cert.ReferenceIdeal.Rbf

end
-- ==== Proof.RefRun.lean ====
/-
  The plain program's run, read back.

  The program is a straight line of tensor operations with three nested function calls: the standard deviation,
  which calls the variance, which calls a select. A call means its callee's body run on the call's own buffers, so
  the whole program is one list of 63 operations, each writing one buffer of its own. From any launch memory every
  execution runs the list in order and stops; afterwards each buffer holds the fold of the operations over the
  launch contents. At the result buffer that fold is, operation by operation, the composition written once as
  tail ∘ xstd: the first operations up to the division by the standard deviation are xstd of arguments 0, 1, 2, and
  the rest is tail of that table and arguments 3, 4. No operation writes an argument buffer, so the five arguments
  are unchanged. Nothing here looks inside an operation: the sums, products, quotient, square root and exponential
  stay folded throughout, and the statement holds for any float values.
-/
import proofs.«139571_j71691594105115_2_alg».proof.Proof.Gen.ReferenceIdeal
import proofs.«139571_j71691594105115_2_alg».proof.Proof.Std
import proofs.«139571_j71691594105115_2_alg».proof.Proof.RefTail
import Idealize.ShloMosaic.Lib.StableHlo.Run

noncomputable section

namespace Cert.ReferenceIdeal.RbfRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The program's 63 operations in order, each call replaced by its callee's operations over the call's own
    buffers: twelve of the program's own, the variance function's eighteen with the select function's two inside,
    the square root, then the remaining thirty. -/
abbrev ops : List (HloOp τ sig (Elt F)) :=
  [ StableHlo.unary main_arg1 main_v0 ((transpose S2x2 [1, 0] · transposes_S2x2_S2x2_1_0) : (⟨S2x2, .f32⟩ : BufTy).Contents (Elt F) → (⟨S2x2, .f32⟩ : BufTy).Contents (Elt F)),
    StableHlo.binary main_arg0 main_v0 main_v1 ((fun l r => Host.dotGeneral dot_S8192x2_S2x2_S8192x2_1_0_0_1_n_n none l r) : (⟨S8192x2, .f32⟩ : BufTy).Contents (Elt F) → (⟨S2x2, .f32⟩ : BufTy).Contents (Elt F) → (⟨S8192x2, .f32⟩ : BufTy).Contents (Elt F)),
    StableHlo.unary main_arg2 main_v2 (broadcastInDim S1x2 ![1] bcast_S2_S1x2_1 : (⟨S2, .f32⟩ : BufTy).Contents (Elt F) → (⟨S1x2, .f32⟩ : BufTy).Contents (Elt F)),
    StableHlo.unary main_v2 main_v3 (broadcastInDim S8192x2 ![0, 1] bcast_S1x2_S8192x2_0_1 : (⟨S1x2, .f32⟩ : BufTy).Contents (Elt F) → (⟨S8192x2, .f32⟩ : BufTy).Contents (Elt F)),
    StableHlo.binary main_v1 main_v3 main_v4 (addf : (⟨S8192x2, .f32⟩ : BufTy).Contents (Elt F) → (⟨S8192x2, .f32⟩ : BufTy).Contents (Elt F) → (⟨S8192x2, .f32⟩ : BufTy).Contents (Elt F)),
    StableHlo.nullary main_cst (constant S_ .f32 0x00000000#32),
    StableHlo.binary main_v4 main_cst main_v5 ((fun x v => Host.reduceAdd x v reducesTo_S8192x2_S_d0_1 h_S_) : (⟨S8192x2, .f32⟩ : BufTy).Contents (Elt F) → (⟨S_, .f32⟩ : BufTy).Contents (Elt F) → (⟨S_, .f32⟩ : BufTy).Contents (Elt F)),
    StableHlo.nullary main_cst_0 (constant S_ .f32 0x46800000#32),
    StableHlo.binary main_v5 main_cst_0 main_v6 (Host.divf : (⟨S_, .f32⟩ : BufTy).Contents (Elt F) → (⟨S_, .f32⟩ : BufTy).Contents (Elt F) → (⟨S_, .f32⟩ : BufTy).Contents (Elt F)),
    StableHlo.unary main_v6 main_v7 (broadcastInDim S8192x2 ![] bcast_S_S8192x2 : (⟨S_, .f32⟩ : BufTy).Contents (Elt F) → (⟨S8192x2, .f32⟩ : BufTy).Contents (Elt F)),
    StableHlo.binary main_v4 main_v7 main_v8 (subf : (⟨S8192x2, .f32⟩ : BufTy).Contents (Elt F) → (⟨S8192x2, .f32⟩ : BufTy).Contents (Elt F) → (⟨S8192x2, .f32⟩ : BufTy).Contents (Elt F)),
    StableHlo.nullary main_c (constantI S_ 32 1#32),
    StableHlo.TRef.nullary main_call0.call0.cst (constant S_ .f32 0x00000000#32),
    StableHlo.TRef.binary (.of main_v4 : StableHlo.TRef sig ⟨S8192x2, .f32⟩) main_call0.call0.cst main_call0.call0.v0 (fun x v => Host.reduceAdd x v reducesTo_S8192x2_S_d0_1 h_S_),
    StableHlo.TRef.unary main_call0.call0.v0 main_call0.call0.v1 (broadcastInDim S1x1 ![] bcast_S_S1x1),
    StableHlo.TRef.nullary main_call0.call0.cst_0 (constant S_ .f32 0x46800000#32),
    StableHlo.TRef.unary main_call0.call0.cst_0 main_call0.call0.v2 (broadcastInDim S1x1 ![] bcast_S_S1x1),
    StableHlo.TRef.binary main_call0.call0.v1 main_call0.call0.v2 main_call0.call0.v3 Host.divf,
    StableHlo.TRef.unary main_call0.call0.v3 main_call0.call0.v4 (broadcastInDim S8192x2 ![0, 1] bcast_S1x1_S8192x2_0_1),
    StableHlo.TRef.binary (.of main_v4 : StableHlo.TRef sig ⟨S8192x2, .f32⟩) main_call0.call0.v4 main_call0.call0.v5 subf,
    StableHlo.TRef.binary main_call0.call0.v5 main_call0.call0.v5 main_call0.call0.v6 mulf,
    StableHlo.TRef.unary (.of main_c : StableHlo.TRef sig ⟨S_, .i32⟩) main_call0.call0.v7 (sitofp .f32),
    StableHlo.TRef.nullary main_call0.call0.cst_1 (constant S_ .f32 0x46800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S8192x2_S_d0_1 h_S_),
    StableHlo.TRef.binary main_call0.call0.v9 main_call0.call0.v8 main_call0.call0.v10 Host.divf,
    StableHlo.TRef.nullary main_call0.call0.cst_3 (constant S_ .f32 0x00000000#32),
    StableHlo.TRef.binary main_call0.call0.v8 main_call0.call0.cst_3 main_call0.call0.v11 (cmpf .ogt),
    StableHlo.TRef.nullary main_call0.call0.cst_4 (constant S_ .f32 0x7FC00000#32),
    StableHlo.TRef.unary main_call0.call0.cst_4 main_call0.call0.call0.v0 id,
    StableHlo.TRef.ternary main_call0.call0.v11 main_call0.call0.v10 main_call0.call0.call0.v0 main_call0.call0.call0.v1 select,
    StableHlo.TRef.unary main_call0.call0.call0.v1 main_call0.v1 Host.sqrt,
    StableHlo.unary main_v9 main_v10 (broadcastInDim S8192x2 ![] bcast_S_S8192x2 : (⟨S_, .f32⟩ : BufTy).Contents (Elt F) → (⟨S8192x2, .f32⟩ : BufTy).Contents (Elt F)),
    StableHlo.binary main_v8 main_v10 main_v11 (Host.divf : (⟨S8192x2, .f32⟩ : BufTy).Contents (Elt F) → (⟨S8192x2, .f32⟩ : BufTy).Contents (Elt F) → (⟨S8192x2, .f32⟩ : BufTy).Contents (Elt F)),
    StableHlo.binary main_v11 main_v11 main_v12 (mulf : (⟨S8192x2, .f32⟩ : BufTy).Contents (Elt F) → (⟨S8192x2, .f32⟩ : BufTy).Contents (Elt F) → (⟨S8192x2, .f32⟩ : BufTy).Contents (Elt F)),
    StableHlo.nullary main_cst_1 (constant S_ .f32 0x00000000#32),
    StableHlo.binary main_v12 main_cst_1 main_v13 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    StableHlo.unary main_v13 main_v14 (broadcastInDim S8192x1 ![0] bcast_S8192_S8192x1_0 : (⟨S8192, .f32⟩ : BufTy).Contents (Elt F) → (⟨S8192x1, .f32⟩ : BufTy).Contents (Elt F)),
    StableHlo.unary main_v13 main_v15 (broadcastInDim S1x8192 ![1] bcast_S8192_S1x8192_1 : (⟨S8192, .f32⟩ : BufTy).Contents (Elt F) → (⟨S1x8192, .f32⟩ : BufTy).Contents (Elt F)),
    StableHlo.unary main_v14 main_v16 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v15 main_v17 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v16 main_v17 main_v18 (addf : (⟨S8192x8192, .f32⟩ : BufTy).Contents (Elt F) → (⟨S8192x8192, .f32⟩ : BufTy).Contents (Elt F) → (⟨S8192x8192, .f32⟩ : BufTy).Contents (Elt F)),
    StableHlo.unary main_v11 main_v19 ((transpose S2x8192 [1, 0] · transposes_S8192x2_S2x8192_1_0) : (⟨S8192x2, .f32⟩ : BufTy).Contents (Elt F) → (⟨S2x8192, .f32⟩ : BufTy).Contents (Elt F)),
    StableHlo.binary main_v11 main_v19 main_v20 ((fun l r => Host.dotGeneral dot_S8192x2_S2x8192_S8192x8192_1_0_0_1_n_n none l r) : (⟨S8192x2, .f32⟩ : BufTy).Contents (Elt F) → (⟨S2x8192, .f32⟩ : BufTy).Contents (Elt F) → (⟨S8192x8192, .f32⟩ : BufTy).Contents (Elt F)),
    StableHlo.nullary main_cst_2 (constant S_ .f32 0x40000000#32),
    StableHlo.unary main_cst_2 main_v21 (broadcastInDim S8192x8192 ![] bcast_S_S8192x8192 : (⟨S_, .f32⟩ : BufTy).Contents (Elt F) → (⟨S8192x8192, .f32⟩ : BufTy).Contents (Elt F)),
    StableHlo.binary main_v21 main_v20 main_v22 (mulf : (⟨S8192x8192, .f32⟩ : BufTy).Contents (Elt F) → (⟨S8192x8192, .f32⟩ : BufTy).Contents (Elt F) → (⟨S8192x8192, .f32⟩ : BufTy).Contents (Elt F)),
    StableHlo.binary main_v18 main_v22 main_v23 (subf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x00000000#32),
    StableHlo.unary main_cst_3 main_v24 (broadcastInDim S8192x8192 ![] bcast_S_S8192x8192 : (⟨S_, .f32⟩ : BufTy).Contents (Elt F) → (⟨S8192x8192, .f32⟩ : BufTy).Contents (Elt F)),
    StableHlo.binary main_v23 main_v24 main_v25 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_4 (constant S_ .f32 0xBF000000#32),
    StableHlo.unary main_cst_4 main_v26 (broadcastInDim S8192x8192 ![] bcast_S_S8192x8192 : (⟨S_, .f32⟩ : BufTy).Contents (Elt F) → (⟨S8192x8192, .f32⟩ : BufTy).Contents (Elt F)),
    StableHlo.binary main_v26 main_v25 main_v27 (mulf : (⟨S8192x8192, .f32⟩ : BufTy).Contents (Elt F) → (⟨S8192x8192, .f32⟩ : BufTy).Contents (Elt F) → (⟨S8192x8192, .f32⟩ : BufTy).Contents (Elt F)),
    StableHlo.unary main_v25 main_v28 (Host.exp : (⟨S8192x8192, .f32⟩ : BufTy).Contents (Elt F) → (⟨S8192x8192, .f32⟩ : BufTy).Contents (Elt F)),
    StableHlo.binary main_v27 main_v28 main_v29 (mulf : (⟨S8192x8192, .f32⟩ : BufTy).Contents (Elt F) → (⟨S8192x8192, .f32⟩ : BufTy).Contents (Elt F) → (⟨S8192x8192, .f32⟩ : BufTy).Contents (Elt F)),
    StableHlo.unary main_arg3 main_v30 ((transpose S8192x1 [1, 0] · transposes_S1x8192_S8192x1_1_0) : (⟨S1x8192, .f32⟩ : BufTy).Contents (Elt F) → (⟨S8192x1, .f32⟩ : BufTy).Contents (Elt F)),
    StableHlo.binary main_v29 main_v30 main_v31 ((fun l r => Host.dotGeneral dot_S8192x8192_S8192x1_S8192x1_1_0_0_1_n_n none l r) : (⟨S8192x8192, .f32⟩ : BufTy).Contents (Elt F) → (⟨S8192x1, .f32⟩ : BufTy).Contents (Elt F) → (⟨S8192x1, .f32⟩ : BufTy).Contents (Elt F)),
    StableHlo.unary main_arg4 main_v32 (broadcastInDim S1x1 ![1] bcast_S1_S1x1_1 : (⟨S1, .f32⟩ : BufTy).Contents (Elt F) → (⟨S1x1, .f32⟩ : BufTy).Contents (Elt F)),
    StableHlo.unary main_v32 main_v33 (broadcastInDim S8192x1 ![0, 1] bcast_S1x1_S8192x1_0_1 : (⟨S1x1, .f32⟩ : BufTy).Contents (Elt F) → (⟨S8192x1, .f32⟩ : BufTy).Contents (Elt F)),
    StableHlo.binary main_v31 main_v33 main_v34 (addf : (⟨S8192x1, .f32⟩ : BufTy).Contents (Elt F) → (⟨S8192x1, .f32⟩ : BufTy).Contents (Elt F) → (⟨S8192x1, .f32⟩ : BufTy).Contents (Elt F)),
    StableHlo.reshape main_v34 main_v35 rfl shapeCasts_S8192x1_S8192 ]

set_option maxRecDepth 4096 in
/-- The program is that straight line: the three functions' bodies unfolded at their calls, the records at their
    fields, and the sequencing reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., binary_bufs_sub .., reshape_bufs_sub ..⟩

attribute [local irreducible] Host.reduceAdd Host.divf Host.sqrt Host.exp in
set_option maxRecDepth 8192 in
set_option maxHeartbeats 400000 in
/-- The fold at the result buffer is the composed term of the five arguments. -/
theorem out_eq (V : Valuation τ sig (Elt F)) :
    after ops V (main_v35 : DevRef τ sig)
      = Cert.ReferenceIdeal.Rbf.tail (Cert.ReferenceIdeal.Rbf.xstd (V (main_arg0 : DevRef τ sig)) (V (main_arg1 : DevRef τ sig)) (V (main_arg2 : DevRef τ sig)))
          (V (main_arg3 : DevRef τ sig)) (V (main_arg4 : DevRef τ sig)) := by
  simp only [after_cons, after_nil]
  rfl

/-- No operation writes argument 0: the fold leaves it as it was. -/
theorem arg0_eq (V : Valuation τ sig (Elt F)) :
    after ops V (main_arg0 : DevRef τ sig) = V (main_arg0 : DevRef τ sig) := by
  simp only [after_cons, after_nil]
  rfl

/-- No operation writes argument 1: the fold leaves it as it was. -/
theorem arg1_eq (V : Valuation τ sig (Elt F)) :
    after ops V (main_arg1 : DevRef τ sig) = V (main_arg1 : DevRef τ sig) := by
  simp only [after_cons, after_nil]
  rfl

/-- No operation writes argument 2: the fold leaves it as it was. -/
theorem arg2_eq (V : Valuation τ sig (Elt F)) :
    after ops V (main_arg2 : DevRef τ sig) = V (main_arg2 : DevRef τ sig) := by
  simp only [after_cons, after_nil]
  rfl

/-- No operation writes argument 3: the fold leaves it as it was. -/
theorem arg3_eq (V : Valuation τ sig (Elt F)) :
    after ops V (main_arg3 : DevRef τ sig) = V (main_arg3 : DevRef τ sig) := by
  simp only [after_cons, after_nil]
  rfl

/-- No operation writes argument 4: the fold leaves it as it was. -/
theorem arg4_eq (V : Valuation τ sig (Elt F)) :
    after ops V (main_arg4 : DevRef τ sig) = V (main_arg4 : DevRef τ sig) := by
  simp only [after_cons, after_nil]
  rfl

/-- At the compiled mesh, for any float values, from any memory with zero counters: every weakly fair execution of
    the program terminates, and every final state holds, at the result buffer, the tail of the computation applied
    to the standardized points, the weights and the offset as the launch memory has them, and holds the five
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = Cert.ReferenceIdeal.Rbf.tail (Cert.ReferenceIdeal.Rbf.xstd (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v35).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.RbfRun

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.LibHostReads.lean ====
/-
  Host operations read at an index, for tables of any size, at the ideal values.

  Laying out: a vector of n entries placed along axis 1 of a one-row table reads, at (u, j), its entry j; a one-column
  table repeated along n columns reads, at (r, t), the column's entry r.

  A plain product: the host's product of an m × n table with an n × p table, whose dimension record has one contracted
  axis of extent n, rows free on the left and columns free on the right (the record's coordinate facts, bundled as
  `PlainDot`), reads at (a, b) the sum over k of l(a, k) · r(k, b). No finiteness is assumed.
-/
import proofs.«139571_j71691594105115_2_alg».proof.Proof.LibDot
import Idealize.ShloMosaic.Lib.IdealHost

noncomputable section

open scoped BigOperators

namespace Cert.LibHostReads

open Idealize.ShloMosaic Idealize.ShloMosaic.ValueIdx

section Reads
variable {α : Type}

/-- A vector of n entries laid along axis 1 of a one-row table reads, at (u, j), its entry j. -/
theorem bcast_row_apply {n : Nat} (hd : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] hd x (ix2 u j) = x (ix1 j) := by
  refine broadcastInDim_apply ![1] hd x (ix2 u j) (ix1 j) ?_
  intro a
  match a with
  | ⟨0, _⟩ =>
    show j.val = if n = 1 then 0 else j.val
    split
    · have := j.isLt; omega
    · rfl

/-- A one-column table repeated along n columns reads, at (r, t), the column's entry r. -/
theorem bcast_col_apply {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else t.val
    rw [if_pos rfl]

end Reads

/-- The coordinate facts of a plain [m, n] × [n, p] product's record: one contracted axis of extent n, the left index
    at output (a, b) and position q being (a, q), the right index (q, b). -/
structure PlainDot {m n p : Nat} (d : DotDims ⟨2, ![m, n]⟩ ⟨2, ![n, p]⟩ ⟨2, ![m, p]⟩) : Prop where
  rank : d.contr.rank = 1
  size : d.contr.size ⟨0, by omega⟩ = n
  l0 : ∀ (i : (⟨2, ![m, p]⟩ : Shape).Idx) (q : d.contr.Idx), (d.lhsIdx i q 0).val = (i 0).val
  l1 : ∀ (i : (⟨2, ![m, p]⟩ : Shape).Idx) (q : d.contr.Idx), (d.lhsIdx i q 1).val = (q ⟨0, by omega⟩).val
  r0 : ∀ (i : (⟨2, ![m, p]⟩ : Shape).Idx) (q : d.contr.Idx), (d.rhsIdx i q 0).val = (q ⟨0, by omega⟩).val
  r1 : ∀ (i : (⟨2, ![m, p]⟩ : Shape).Idx) (q : d.contr.Idx), (d.rhsIdx i q 1).val = (i 1).val

/-- A plain product on the host read at (a, b): the sum over the shared coordinate. -/
theorem dot_apply {m n p : Nat} {d : DotDims ⟨2, ![m, n]⟩ ⟨2, ![n, p]⟩ ⟨2, ![m, p]⟩} (hd : PlainDot d)
    (l : (⟨2, ![m, n]⟩ : Shape).Idx → EReal) (r : (⟨2, ![n, p]⟩ : Shape).Idx → EReal) (a : Fin m) (b : Fin p) :
    Host.dotGeneral (F := Ideal) (φ₁ := .f32) (φ₂ := .f32) d none l r (ix2 a b) = ∑ k : Fin n, l (ix2 a k) * r (ix2 k b) :=
  (Ideal.dotGeneral_apply d none _ l r (ix2 a b)).trans
    (Cert.Sage.LibDot.sum_plain d hd.rank hd.size hd.l0 hd.l1 hd.r0 hd.r1 l r a b)

end Cert.LibHostReads

end
-- ==== Proof.RefValue.lean ====
/-
  The plain program's result, read entry by entry, is the common value G.

  Entry r of the result is read one operation at a time. The one-column table cast to a vector reads its row r.
  The sum of two tables reads the sum of their entries. The product of the 8192 × 8192 weight table with the
  weights as a column reads, at (r, 0), the sum over j of weight(r, j) · W(0, j), the column being the transposed
  row of weights. The offset, laid along a 1 × 1 table and repeated down the rows, reads b(0).

  The weight table at (r, j) is (−½·d)·exp(d) of the clipped squared distance d(r, j). That distance is the
  maximum with zero of  |x_r|² + |x_j|² − 2·⟨x_r, x_j⟩ : the squared norms are each row's two squares summed
  from zero (a sum over the two columns, with 0 + s = s), laid down the rows and along the columns; the inner
  product table X·Xᵀ at (r, j) is the sum over the two columns k of X(r, k)·X(j, k). Every step is the
  definition of the operation at an index; no entry is assumed finite.
-/
import proofs.«139571_j71691594105115_2_alg».proof.Proof.Spec
import proofs.«139571_j71691594105115_2_alg».proof.Proof.RefTail
import proofs.«139571_j71691594105115_2_alg».proof.Proof.LibHostReads
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.ReferenceIdeal.RbfValue

open Idealize.ShloMosaic Idealize.ShloMosaic.ValueIdx
open Cert.ReferenceIdeal Cert.ReferenceIdeal.Facts₀ Cert.ReferenceIdeal.Facts Cert.ReferenceIdeal.Rbf
open Cert.LibHostReads

/-- The record of the product of the points with their transpose. -/
abbrev D1 := dot_S8192x2_S2x8192_S8192x8192_1_0_0_1_n_n
/-- The record of the product of the weight table with the weights as a column. -/
abbrev D2 := dot_S8192x8192_S8192x1_S8192x1_1_0_0_1_n_n

theorem plain1 : PlainDot D1 where
  rank := rfl
  size := rfl
  l0 := fun i q => by simp [DotDims.lhsIdx, D1, dot_S8192x2_S2x8192_S8192x8192_1_0_0_1_n_n]; rfl
  l1 := fun i q => DotDims.lhsIdx_val_of_single D1 (cl := 1) rfl i q
  r0 := fun i q => DotDims.rhsIdx_val_of_single D1 (cr := 0) rfl i q
  r1 := fun i q => by simp [DotDims.rhsIdx, D1, dot_S8192x2_S2x8192_S8192x8192_1_0_0_1_n_n]; rfl

theorem plain2 : PlainDot D2 where
  rank := rfl
  size := rfl
  l0 := fun i q => by simp [DotDims.lhsIdx, D2, dot_S8192x8192_S8192x1_S8192x1_1_0_0_1_n_n]; rfl
  l1 := fun i q => DotDims.lhsIdx_val_of_single D2 (cl := 1) rfl i q
  r0 := fun i q => DotDims.rhsIdx_val_of_single D2 (cr := 0) rfl i q
  r1 := fun i q => by
    simp [DotDims.rhsIdx, D2, dot_S8192x8192_S8192x1_S8192x1_1_0_0_1_n_n]
    exact (Fin.val_eq_zero (i 1)).symm

/-- The transposed points read at (k, j): the points at (j, k). -/
theorem xt_apply (X : FVec Ideal S8192x2 .f32) (k : Fin 2) (j : Fin 8192) :
    transpose S2x8192 [1, 0] X transposes_S8192x2_S2x8192_1_0 (ix2 k j) = X (ix2 j k) := by
  refine transpose_apply [1, 0] X transposes_S8192x2_S2x8192_1_0 (ix2 k j) (ix2 j k) ?_
  intro b
  match b with
  | ⟨0, _⟩ => rfl
  | ⟨1, _⟩ => rfl

/-- The weights as a column read at (j, 0): the weights at (0, j). -/
theorem wt_apply (a3 : FVec Ideal S1x8192 .f32) (j : Fin 8192) :
    transpose S8192x1 [1, 0] a3 transposes_S1x8192_S8192x1_1_0 (ix2 j (0 : Fin 1)) = a3 (ix2 (0 : Fin 1) j) := by
  refine transpose_apply [1, 0] a3 transposes_S1x8192_S8192x1_1_0 (ix2 j (0 : Fin 1)) (ix2 (0 : Fin 1) j) ?_
  intro b
  match b with
  | ⟨0, _⟩ => rfl
  | ⟨1, _⟩ => rfl

/-- A vector of 8192 entries laid down axis 0 of a one-column table reads, at (r, 0), its entry r. -/
theorem col_apply {α : Type} (x : S8192.Idx → α) (r : Fin 8192) :
    broadcastInDim S8192x1 ![0] bcast_S8192_S8192x1_0 x (ix2 r (0 : Fin 1)) = x (ix1 r) := by
  refine broadcastInDim_apply ![0] bcast_S8192_S8192x1_0 x (ix2 r (0 : Fin 1)) (ix1 r) ?_
  intro a
  match a with
  | ⟨0, _⟩ => rfl

/-- Row r's squared norm: the two squares, summed from zero. -/
theorem sqn_apply (X : FVec Ideal S8192x2 .f32) (r : Fin 8192) :
    sqn X (ix1 r) = X (ix2 r (0 : Fin 2)) * X (ix2 r (0 : Fin 2)) + X (ix2 r (1 : Fin 2)) * X (ix2 r (1 : Fin 2)) := by
  have hR : S8192x2.Reduces [1] S8192 := by decide
  have e := Ideal.hostReduceAdd_single reducesTo_S8192x2_S8192_d1 hR (mulf X X) (Ideal.ofBits .f32 0x00000000#32) (ix1 r)
  have e0 : hR.lift (ix1 r) (0 : Fin 2) = ix2 r (0 : Fin 2) := by
    funext c
    match c with
    | ⟨0, _⟩ => rfl
    | ⟨1, _⟩ => rfl
  have e1 : hR.lift (ix1 r) (1 : Fin 2) = ix2 r (1 : Fin 2) := by
    funext c
    match c with
    | ⟨0, _⟩ => rfl
    | ⟨1, _⟩ => rfl
  refine (e.trans ?_)
  rw [Ideal.ofBits_zero_f32, zero_add]
  refine (Fin.sum_univ_two (fun k : Fin 2 => (mulf X X) (hR.lift (ix1 r) k))).trans ?_
  rw [e0, e1]
  rfl

/-- A float literal laid over the whole 8192 × 8192 table reads, everywhere, the value its pattern denotes. -/
theorem splat_apply (c : BitVec 32) (i : S8192x8192.Idx) :
    broadcastInDim S8192x8192 ![] bcast_S_S8192x8192 (constant (F := Ideal) S_ .f32 c) i = Ideal.ofBits .f32 c :=
  broadcastInDim_scalar_apply bcast_S_S8192x8192 _ i

/-- The host's exponential at an index is the exponential of the entry. -/
theorem hostExp_apply {s : Shape} (x : FVec Ideal s .f32) (i : s.Idx) : Host.exp x i = Ideal.exp (x i) := rfl

/-- The table of inner products at (r, j): the two products of coordinates, summed. -/
theorem gram_apply (X : FVec Ideal S8192x2 .f32) (r j : Fin 8192) :
    Host.dotGeneral (F := Ideal) D1 none X (transpose S2x8192 [1, 0] X transposes_S8192x2_S2x8192_1_0) (ix2 r j)
      = X (ix2 r (0 : Fin 2)) * X (ix2 j (0 : Fin 2)) + X (ix2 r (1 : Fin 2)) * X (ix2 j (1 : Fin 2)) := by
  rw [dot_apply plain1, Fin.sum_univ_two, xt_apply, xt_apply]

/-- The clipped squared distance of rows r and j. -/
theorem kmat_apply (X : FVec Ideal S8192x2 .f32) (r j : Fin 8192) :
    kmat X (ix2 r j)
      = Cert.Rbf.dist (X (ix2 r (0 : Fin 2))) (X (ix2 r (1 : Fin 2))) (X (ix2 j (0 : Fin 2))) (X (ix2 j (1 : Fin 2))) := by
  have h1 : broadcastInDim S8192x8192 ![0, 1] bcast_S8192x1_S8192x8192_0_1
      (broadcastInDim S8192x1 ![0] bcast_S8192_S8192x1_0 (sqn X)) (ix2 r j) = sqn X (ix1 r) :=
    (bcast_col_apply bcast_S8192x1_S8192x8192_0_1 _ r j).trans (col_apply (sqn X) r)
  have h2 : broadcastInDim S8192x8192 ![0, 1] bcast_S1x8192_S8192x8192_0_1
      (broadcastInDim S1x8192 ![1] bcast_S8192_S1x8192_1 (sqn X)) (ix2 r j) = sqn X (ix1 j) :=
    Cert.Sage.LibDot.row_dims_apply (sqn X) bcast_S8192_S1x8192_1 bcast_S1x8192_S8192x8192_0_1 r j
  unfold kmat
  rw [maximumf_apply, subf_apply, addf_apply, mulf_apply, h1, h2, splat_apply, splat_apply, gram_apply, sqn_apply, sqn_apply]
  rfl

/-- The weight of the pair of rows r and j. -/
theorem wmat_apply (X : FVec Ideal S8192x2 .f32) (r j : Fin 8192) :
    wmat X (ix2 r j)
      = Cert.Rbf.pair (X (ix2 r (0 : Fin 2))) (X (ix2 r (1 : Fin 2))) (X (ix2 j (0 : Fin 2))) (X (ix2 j (1 : Fin 2))) := by
  unfold wmat
  rw [mulf_apply, mulf_apply, splat_apply, hostExp_apply, kmat_apply]
  rfl

/-- Entry r of the program's result. -/
theorem tail_apply (X : FVec Ideal S8192x2 .f32) (a3 : FVec Ideal S1x8192 .f32) (a4 : FVec Ideal S1 .f32) (r : Fin 8192) :
    tail (F := Ideal) X a3 a4 (ix1 r) = Cert.Rbf.entry X a3 a4 r := by
  unfold tail
  rw [shapeCast_apply _ shapeCasts_S8192x1_S8192 (ix1 r) (ix2 r (0 : Fin 1)) (by
    rw [Shape.rowMajor_val_two, Shape.rowMajor_val_one]
    show r.val * 1 + 0 = r.val
    omega)]
  rw [addf_apply, dot_apply plain2, Cert.Sage.LibDot.row_dims_apply a4 bcast_S1_S1x1_1 bcast_S1x1_S8192x1_0_1 r (0 : Fin 1)]
  unfold Cert.Rbf.entry
  refine congrArg (· + a4 (ix1 (0 : Fin 1))) (Finset.sum_congr rfl fun j _ => ?_)
  rw [wmat_apply, wt_apply]
  rfl

theorem tail_eq (X : FVec Ideal Cert.ReferenceIdeal.S8192x2 .f32) (a3 : FVec Ideal Cert.ReferenceIdeal.S1x8192 .f32) (a4 : FVec Ideal Cert.ReferenceIdeal.S1 .f32) :
    Cert.ReferenceIdeal.Rbf.tail (F := Ideal) X a3 a4 = Cert.Rbf.G X a3 a4 := by
  funext i
  obtain ⟨r, rfl⟩ : ∃ r : Fin 8192, i = ix1 r := ⟨i 0, eq_ix1 i⟩
  rw [tail_apply, Cert.Rbf.G_apply]

end Cert.ReferenceIdeal.RbfValue
end
-- ==== Proof.lean ====
/-
  Two programs compute, for 8192 points in the plane (after an affine layer and a standardization that both
  programs spell identically), the vector whose entry r is

      Σ_j (−½·d(r, j))·exp(d(r, j))·W(j)  +  b,        d(r, j) = max(|x_r|² + |x_j|² − 2·⟨x_r, x_j⟩, 0).

  The plain program forms the 8192 × 8192 tables and takes one matrix product with the weights. The kernel program
  never forms them: for each block of 512 rows it walks the four blocks of 2048 columns, computes the block's pair
  weights from two coordinate columns and two coordinate rows, sums each row against that block's weights, and adds
  the sums to a running total kept in the output block, which starts from zero and is written back after the fourth
  column block; the offset is added afterwards.

  Over the extended reals the two are equal entry by entry, and the only law used between them is that addition is
  associative and commutative with 0 neutral: a sum over 8192 columns is the running total of its four consecutive
  blocks' sums, a two-term inner product or squared norm is the same two products added, and a sum "from zero" is the
  sum. No product is distributed over a sum and nothing is cancelled, so no entry needs to be finite and the
  precondition is never opened. The standardization is carried as one function of the raw tables and never looked into.

  The three frame claims: the two kernel programs' are the generated frame proofs; the plain program's is its run with
  the result forgotten. The idealization rewrote nothing, so there is nothing to preserve.
-/
import proofs.«139571_j71691594105115_2_alg».proof.Defs
import proofs.«139571_j71691594105115_2_alg».proof.Proof.Gen.Kernel
import proofs.«139571_j71691594105115_2_alg».proof.Proof.Gen.Kernel.Frame
import proofs.«139571_j71691594105115_2_alg».proof.Proof.Gen.KernelIdeal
import proofs.«139571_j71691594105115_2_alg».proof.Proof.Gen.KernelIdeal.Frame
import proofs.«139571_j71691594105115_2_alg».proof.Proof.Gen.ReferenceIdeal
import proofs.«139571_j71691594105115_2_alg».proof.Proof.Gen.Pre_finite_inputs
import proofs.«139571_j71691594105115_2_alg».proof.Proof.Std
import proofs.«139571_j71691594105115_2_alg».proof.Proof.KernelValue
import proofs.«139571_j71691594105115_2_alg».proof.Proof.RefRun
import proofs.«139571_j71691594105115_2_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The plain program runs, and its run leaves the argument tables as launched. -/
theorem frame_referenceIdeal : Cert.frame_ReferenceIdeal := fun m ρ _ =>
  (θ_run Cert.ReferenceIdeal.defs _ _).mono (fun _ h c => (h c).2) (Cert.ReferenceIdeal.RbfRun.run (F := Ideal) m ρ)

theorem preserves : Cert.preserves_Kernel_KernelIdeal := trivial

/-- Both runs end at the common value G of the standardized points, the weight row and the offset: the kernel's by
    the running totals, the plain program's entry by entry; the standardized points are one function of raw tables
    that agree. -/
theorem algebraic : Cert.algebraic_KernelIdeal_ReferenceIdeal := by
  intro m ρ m' ρ' _ hagree
  refine ⟨_, Cert.KernelIdeal.RbfValue.run m ρ, ?_⟩
  refine (θ_run Cert.ReferenceIdeal.defs _ _).mono (fun _ h c => ⟨(h c).1.trans ?_, (h c).2⟩)
    (Cert.ReferenceIdeal.RbfRun.run (F := Ideal) m' ρ')
  rw [Cert.ReferenceIdeal.RbfValue.tail_eq, Cert.Rbf.xstd_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
